-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x96000 : Shape := ⟨3, ![32, 3, 96000]⟩
abbrev S_ : Shape := ⟨0, ![]⟩

class Facts : Prop where
  bcast_S_S32x3x96000 : S_.BroadcastsInDim S32x3x96000 (![] : Fin 0 → Fin S32x3x96000.rank)
  reducesTo_S32x3x96000_S_d0_1_2 : S32x3x96000.ReducesTo [0, 1, 2] S_
  h_S_ : 0 < S_.numel

variable [Facts]

def fn {F : FTy → Type} [FloatOps F] (main_arg0 : FVec F S32x3x96000 .f32) (main_arg1 : FVec F S32x3x96000 .f32) : IVec S_ 1 :=
  let main_v0 : FVec F S32x3x96000 .f32 := Host.absf main_arg0
  let main_cst : FVec F S_ .f32 := constant S_ .f32 0x7F800000#32
  let main_v1 : FVec F S32x3x96000 .f32 := broadcastInDim S32x3x96000 ![] bcast_S_S32x3x96000 main_cst
  let main_v2 : IVec S32x3x96000 1 := cmpf .olt main_v0 main_v1
  let main_c : IVec S_ 1 := constantI S_ 1 1#1
  let main_v3 : IVec S_ 1 := (fun x v => Host.reduce IntOp.andi x v reducesTo_S32x3x96000_S_d0_1_2 h_S_) main_v2 main_c
  let main_v4 : FVec F S32x3x96000 .f32 := Host.absf main_arg1
  let main_cst_0 : FVec F S_ .f32 := constant S_ .f32 0x7F800000#32
  let main_v5 : FVec F S32x3x96000 .f32 := broadcastInDim S32x3x96000 ![] bcast_S_S32x3x96000 main_cst_0
  let main_v6 : IVec S32x3x96000 1 := cmpf .olt main_v4 main_v5
  let main_c_1 : IVec S_ 1 := constantI S_ 1 1#1
  let main_v7 : IVec S_ 1 := (fun x v => Host.reduce IntOp.andi x v reducesTo_S32x3x96000_S_d0_1_2 h_S_) main_v6 main_c_1
  let main_v8 : IVec S_ 1 := andi main_v3 main_v7
  main_v8
-- ==== Kernel.lean ====
abbrev S32x3x96000 : Shape := ⟨3, ![32, 3, 96000]⟩
abbrev S6x3 : Shape := ⟨2, ![6, 3]⟩
abbrev S32x3x3 : Shape := ⟨3, ![32, 3, 3]⟩
abbrev S1x3x96000 : Shape := ⟨3, ![1, 3, 96000]⟩
abbrev S1x3x3 : Shape := ⟨3, ![1, 3, 3]⟩
abbrev S3x96000 : Shape := ⟨2, ![3, 96000]⟩
abbrev S3 : Shape := ⟨1, ![3]⟩
abbrev S3x1 : Shape := ⟨2, ![3, 1]⟩
abbrev S3x3 : Shape := ⟨2, ![3, 3]⟩
abbrev S1x3 : Shape := ⟨2, ![1, 3]⟩
abbrev S_ : Shape := ⟨0, ![]⟩
abbrev S6x3x1 : Shape := ⟨3, ![6, 3, 1]⟩
abbrev S6x3x2 : Shape := ⟨3, ![6, 3, 2]⟩
abbrev S32x6x3 : Shape := ⟨3, ![32, 6, 3]⟩
abbrev S32x6 : Shape := ⟨2, ![32, 6]⟩
abbrev S32 : Shape := ⟨1, ![32]⟩

abbrev nBuf : Space → Nat
  | .hbm => 37
  | .vmem => 6
  | .smem => 0
  | _ => 0

abbrev bufTy : (tb : Table) → Fin (tcTables nBuf tb) → BufTy
  | .hbm, ⟨0, _⟩ => ⟨S32x3x96000, .f32⟩
  | .hbm, ⟨1, _⟩ => ⟨S32x3x96000, .f32⟩
  | .hbm, ⟨2, _⟩ => ⟨S6x3, .i32⟩
  | .hbm, ⟨3, _⟩ => ⟨S32x3x3, .f32⟩
  | .hbm, ⟨4, _⟩ => ⟨S3, .i32⟩
  | .hbm, ⟨5, _⟩ => ⟨S1x3, .i32⟩
  | .hbm, ⟨6, _⟩ => ⟨S_, .i32⟩
  | .hbm, ⟨7, _⟩ => ⟨S1x3, .i32⟩
  | .hbm, ⟨8, _⟩ => ⟨S1x3, .i1⟩
  | .hbm, ⟨9, _⟩ => ⟨S_, .i32⟩
  | .hbm, ⟨10, _⟩ => ⟨S1x3, .i32⟩
  | .hbm, ⟨11, _⟩ => ⟨S1x3, .i32⟩
  | .hbm, ⟨12, _⟩ => ⟨S1x3, .i32⟩
  | .hbm, ⟨13, _⟩ => ⟨S_, .i32⟩
  | .hbm, ⟨14, _⟩ => ⟨S6x3, .i32⟩
  | .hbm, ⟨15, _⟩ => ⟨S6x3, .i1⟩
  | .hbm, ⟨16, _⟩ => ⟨S_, .i32⟩
  | .hbm, ⟨17, _⟩ => ⟨S6x3, .i32⟩
  | .hbm, ⟨18, _⟩ => ⟨S6x3, .i32⟩
  | .hbm, ⟨19, _⟩ => ⟨S6x3, .i32⟩
  | .hbm, ⟨20, _⟩ => ⟨S6x3, .i32⟩
  | .hbm, ⟨21, _⟩ => ⟨S6x3x1, .i32⟩
  | .hbm, ⟨22, _⟩ => ⟨S6x3x1, .i32⟩
  | .hbm, ⟨23, _⟩ => ⟨S6x3x2, .i32⟩
  | .hbm, ⟨24, _⟩ => ⟨S32x6x3, .f32⟩
  | .hbm, ⟨25, _⟩ => ⟨S_, .f32⟩
  | .hbm, ⟨26, _⟩ => ⟨S32x6, .f32⟩
  | .hbm, ⟨27, _⟩ => ⟨S_, .f32⟩
  | .hbm, ⟨28, _⟩ => ⟨S32x6, .f32⟩
  | .hbm, ⟨29, _⟩ => ⟨S32x6, .f32⟩
  | .hbm, ⟨30, _⟩ => ⟨S_, .f32⟩
  | .hbm, ⟨31, _⟩ => ⟨S32, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1x3x96000, .f32⟩
  | .local _ .vmem, ⟨1, _⟩ => ⟨S1x3x96000, .f32⟩
  | .local _ .vmem, ⟨2, _⟩ => ⟨S1x3x96000, .f32⟩
  | .local _ .vmem, ⟨3, _⟩ => ⟨S1x3x96000, .f32⟩
  | .local _ .vmem, ⟨4, _⟩ => ⟨S1x3x3, .f32⟩
  | .local _ .vmem, ⟨5, _⟩ => ⟨S1x3x3, .f32⟩
  | _, _ => ⟨S32x3x96000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x96000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x96000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x3x96000_S1x3x96000_0_0_0 : ∀ a, (![0, 0, 0] : Fin 3 → Nat) a + S1x3x96000.size a ≤ S1x3x96000.size a
  h_S1x3x96000 : 0 < S1x3x96000.numel
  shapeCasts_S1x3x96000_S3x96000 : S1x3x96000.ShapeCasts S3x96000
  reduces_S3x96000_S3 : S3x96000.Reduces [1] S3
  shapeCasts_S3_S3x1 : S3.ShapeCasts S3x1
  broadcasts_S3x1_S3x96000 : S3x1.Broadcasts S3x96000
  shapeCasts_S3_S1x3 : S3.ShapeCasts S1x3
  broadcasts_S1x3_S3x3 : S1x3.Broadcasts S3x3
  broadcasts_S3x1_S3x3 : S3x1.Broadcasts S3x3
  inb_S1x3x3_S1x3x3_0_0_0 : ∀ a, (![0, 0, 0] : Fin 3 → Nat) a + S1x3x3.size a ≤ S1x3x3.size a
  h_S1x3x3 : 0 < S1x3x3.numel
  shapeCasts_S1x3x3_S3x3 : S1x3x3.ShapeCasts S3x3
  shapeCasts_S3x3_S1x3x3 : S3x3.ShapeCasts S1x3x3
  bcast_S3_S1x3_1 : S3.BroadcastsInDim S1x3 (![1] : Fin 1 → Fin S1x3.rank)
  bcast_S_S1x3 : S_.BroadcastsInDim S1x3 (![] : Fin 0 → Fin S1x3.rank)
  bcast_S_S6x3 : S_.BroadcastsInDim S6x3 (![] : Fin 0 → Fin S6x3.rank)
  bcast_S1x3_S6x3_0_1 : S1x3.BroadcastsInDim S6x3 (![0, 1] : Fin 2 → Fin S6x3.rank)
  bcast_S6x3_S6x3x1_0_1 : S6x3.BroadcastsInDim S6x3x1 (![0, 1] : Fin 2 → Fin S6x3x1.rank)
  concatenates_S6x3x1_S6x3x1_S6x3x2_d2 : Shape.Concatenates [S6x3x1, S6x3x1] S6x3x2 2
  reducesTo_S32x6x3_S32x6_d2 : S32x6x3.ReducesTo [2] S32x6
  h_S_ : 0 < S_.numel
  bcast_S_S32x6 : S_.BroadcastsInDim S32x6 (![] : Fin 0 → Fin S32x6.rank)
  reducesTo_S32x6_S32_d1 : S32x6.ReducesTo [1] S32
  reducesTo_S32_S_d0 : S32.ReducesTo [0] S_
  dot_S3x96000_S3x96000_S3x3_1_1_0_0_n_n_wf : DotDims.WF S3x96000 S3x96000 S3x3 [1] [1] [0] [0] [] []
  gather_S32x3x3_S6x3x2_S32x6x3_0_12_n_n_12_2_3211_wf : GatherDims.WF S32x3x3 S6x3x2 S32x6x3 [0] [1, 2] [] [1, 2] [] 2 ![32, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x96000.size a ≤ S32x3x96000.size a
  hwx0_0 : ∀ i : grid0.Coords, EltTy.bits .f32 = 32 ∨ (Rect.block (s := S32x3x96000) S1x3x96000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x96000.size a ≤ S32x3x96000.size a
  hwx0_1 : ∀ i : grid0.Coords, EltTy.bits .f32 = 32 ∨ (Rect.block (s := S32x3x96000) S1x3x96000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x3.size a ≤ S32x3x3.size a
  hwx0_2 : ∀ i : grid0.Coords, EltTy.bits .f32 = 32 ∨ (Rect.block (s := S32x3x3) S1x3x3.size (cc0_transform_2 i) (hinb0_2 i)).WholeWords (EltTy.packing .f32)

variable [Facts₀]

def dot_S3x96000_S3x96000_S3x3_1_1_0_0_n_n : DotDims S3x96000 S3x96000 S3x3 where
  lhsContracting := [1]
  rhsContracting := [1]
  lhsNonContracting := [0]
  rhsNonContracting := [0]
  lhsBatch := []
  rhsBatch := []
  wf := dot_S3x96000_S3x96000_S3x3_1_1_0_0_n_n_wf
def gather_S32x3x3_S6x3x2_S32x6x3_0_12_n_n_12_2_3211 : GatherDims S32x3x3 S6x3x2 S32x6x3 where
  offsetDims := [0]
  collapsedSliceDims := [1, 2]
  operandBatchingDims := []
  startIndicesBatchingDims := []
  startIndexMap := [1, 2]
  indexVectorDim := 2
  sliceSizes := ![32, 1, 1]
  wf := gather_S32x3x3_S6x3x2_S32x6x3_0_12_n_n_12_2_3211_wf

abbrev win0_0 : Pipeline.Window sig grid0 :=
  Pipeline.Window.ofSpec (Memref.whole main_arg0) S1x3x96000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x96000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x96000 : Shape := ⟨3, ![32, 3, 96000]⟩
abbrev S6x3 : Shape := ⟨2, ![6, 3]⟩
abbrev S_ : Shape := ⟨0, ![]⟩
abbrev S32x3 : Shape := ⟨2, ![32, 3]⟩
abbrev S32x3x1 : Shape := ⟨3, ![32, 3, 1]⟩
abbrev S32x3x3 : Shape := ⟨3, ![32, 3, 3]⟩
abbrev S32x1x3 : Shape := ⟨3, ![32, 1, 3]⟩
abbrev S3 : Shape := ⟨1, ![3]⟩
abbrev S1x3 : Shape := ⟨2, ![1, 3]⟩
abbrev S6x3x1 : Shape := ⟨3, ![6, 3, 1]⟩
abbrev S6x3x2 : Shape := ⟨3, ![6, 3, 2]⟩
abbrev S32x6x3 : Shape := ⟨3, ![32, 6, 3]⟩
abbrev S32x6 : Shape := ⟨2, ![32, 6]⟩
abbrev S32 : Shape := ⟨1, ![32]⟩

abbrev nBuf : Space → Nat
  | .hbm => 83
  | .vmem => 0
  | .smem => 0
  | _ => 0

abbrev bufTy : (tb : Table) → Fin (tcTables nBuf tb) → BufTy
  | .hbm, ⟨0, _⟩ => ⟨S32x3x96000, .f32⟩
  | .hbm, ⟨1, _⟩ => ⟨S32x3x96000, .f32⟩
  | .hbm, ⟨2, _⟩ => ⟨S6x3, .i32⟩
  | .hbm, ⟨3, _⟩ => ⟨S_, .f32⟩
  | .hbm, ⟨4, _⟩ => ⟨S32x3, .f32⟩
  | .hbm, ⟨5, _⟩ => ⟨S32x3x1, .f32⟩
  | .hbm, ⟨6, _⟩ => ⟨S_, .f32⟩
  | .hbm, ⟨7, _⟩ => ⟨S32x3x1, .f32⟩
  | .hbm, ⟨8, _⟩ => ⟨S32x3x1, .f32⟩
  | .hbm, ⟨9, _⟩ => ⟨S32x3x96000, .f32⟩
  | .hbm, ⟨10, _⟩ => ⟨S32x3x96000, .f32⟩
  | .hbm, ⟨11, _⟩ => ⟨S_, .f32⟩
  | .hbm, ⟨12, _⟩ => ⟨S32x3, .f32⟩
  | .hbm, ⟨13, _⟩ => ⟨S32x3x1, .f32⟩
  | .hbm, ⟨14, _⟩ => ⟨S_, .f32⟩
  | .hbm, ⟨15, _⟩ => ⟨S32x3x1, .f32⟩
  | .hbm, ⟨16, _⟩ => ⟨S32x3x1, .f32⟩
  | .hbm, ⟨17, _⟩ => ⟨S32x3x96000, .f32⟩
  | .hbm, ⟨18, _⟩ => ⟨S32x3x96000, .f32⟩
  | .hbm, ⟨19, _⟩ => ⟨S32x3x3, .f32⟩
  | .hbm, ⟨20, _⟩ => ⟨S32x3x96000, .f32⟩
  | .hbm, ⟨21, _⟩ => ⟨S_, .f32⟩
  | .hbm, ⟨22, _⟩ => ⟨S32x3, .f32⟩
  | .hbm, ⟨23, _⟩ => ⟨S32x1x3, .f32⟩
  | .hbm, ⟨24, _⟩ => ⟨S32x3x96000, .f32⟩
  | .hbm, ⟨25, _⟩ => ⟨S_, .f32⟩
  | .hbm, ⟨26, _⟩ => ⟨S32x3, .f32⟩
  | .hbm, ⟨27, _⟩ => ⟨S32x3x1, .f32⟩
  | .hbm, ⟨28, _⟩ => ⟨S32x3x3, .f32⟩
  | .hbm, ⟨29, _⟩ => ⟨S_, .f32⟩
  | .hbm, ⟨30, _⟩ => ⟨S32x1x3, .f32⟩
  | .hbm, ⟨31, _⟩ => ⟨S32x1x3, .f32⟩
  | .hbm, ⟨32, _⟩ => ⟨S32x3x3, .f32⟩
  | .hbm, ⟨33, _⟩ => ⟨S32x3x3, .f32⟩
  | .hbm, ⟨34, _⟩ => ⟨S32x3x3, .f32⟩
  | .hbm, ⟨35, _⟩ => ⟨S32x3x3, .f32⟩
  | .hbm, ⟨36, _⟩ => ⟨S_, .f32⟩
  | .hbm, ⟨37, _⟩ => ⟨S32x3x3, .f32⟩
  | .hbm, ⟨38, _⟩ => ⟨S32x3x3, .f32⟩
  | .hbm, ⟨39, _⟩ => ⟨S32x3x3, .f32⟩
  | .hbm, ⟨40, _⟩ => ⟨S_, .f32⟩
  | .hbm, ⟨41, _⟩ => ⟨S32x3x3, .f32⟩
  | .hbm, ⟨42, _⟩ => ⟨S32x3x3, .f32⟩
  | .hbm, ⟨43, _⟩ => ⟨S32x3x3, .f32⟩
  | .hbm, ⟨44, _⟩ => ⟨S_, .f32⟩
  | .hbm, ⟨45, _⟩ => ⟨S32x3x3, .f32⟩
  | .hbm, ⟨46, _⟩ => ⟨S32x3x3, .f32⟩
  | .hbm, ⟨47, _⟩ => ⟨S_, .f32⟩
  | .hbm, ⟨48, _⟩ => ⟨S32x3x3, .f32⟩
  | .hbm, ⟨49, _⟩ => ⟨S32x3x3, .f32⟩
  | .hbm, ⟨50, _⟩ => ⟨S3, .i32⟩
  | .hbm, ⟨51, _⟩ => ⟨S1x3, .i32⟩
  | .hbm, ⟨52, _⟩ => ⟨S_, .i32⟩
  | .hbm, ⟨53, _⟩ => ⟨S1x3, .i32⟩
  | .hbm, ⟨54, _⟩ => ⟨S1x3, .i1⟩
  | .hbm, ⟨55, _⟩ => ⟨S_, .i32⟩
  | .hbm, ⟨56, _⟩ => ⟨S1x3, .i32⟩
  | .hbm, ⟨57, _⟩ => ⟨S1x3, .i32⟩
  | .hbm, ⟨58, _⟩ => ⟨S1x3, .i32⟩
  | .hbm, ⟨59, _⟩ => ⟨S_, .i32⟩
  | .hbm, ⟨60, _⟩ => ⟨S6x3, .i32⟩
  | .hbm, ⟨61, _⟩ => ⟨S6x3, .i1⟩
  | .hbm, ⟨62, _⟩ => ⟨S_, .i32⟩
  | .hbm, ⟨63, _⟩ => ⟨S6x3, .i32⟩
  | .hbm, ⟨64, _⟩ => ⟨S6x3, .i32⟩
  | .hbm, ⟨65, _⟩ => ⟨S6x3, .i32⟩
  | .hbm, ⟨66, _⟩ => ⟨S6x3, .i32⟩
  | .hbm, ⟨67, _⟩ => ⟨S6x3x1, .i32⟩
  | .hbm, ⟨68, _⟩ => ⟨S6x3x1, .i32⟩
  | .hbm, ⟨69, _⟩ => ⟨S6x3x2, .i32⟩
  | .hbm, ⟨70, _⟩ => ⟨S32x6x3, .f32⟩
  | .hbm, ⟨71, _⟩ => ⟨S_, .f32⟩
  | .hbm, ⟨72, _⟩ => ⟨S32x6, .f32⟩
  | .hbm, ⟨73, _⟩ => ⟨S_, .f32⟩
  | .hbm, ⟨74, _⟩ => ⟨S32x6, .f32⟩
  | .hbm, ⟨75, _⟩ => ⟨S32x6, .f32⟩
  | .hbm, ⟨76, _⟩ => ⟨S_, .f32⟩
  | .hbm, ⟨77, _⟩ => ⟨S32, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S32x3x96000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_10 : Ref sig .tc := ⟨.hbm, 52, rfl⟩
abbrev main_v38 : Ref sig .tc := ⟨.hbm, 53, rfl⟩
abbrev main_v39 : Ref sig .tc := ⟨.hbm, 54, rfl⟩
abbrev main_c_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_12 : Ref sig .tc := ⟨.hbm, 59, rfl⟩
abbrev main_v43 : Ref sig .tc := ⟨.hbm, 60, rfl⟩
abbrev main_v44 : Ref sig .tc := ⟨.hbm, 61, rfl⟩
abbrev main_c_13 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_cst_15 : Ref sig .tc := ⟨.hbm, 73, rfl⟩
abbrev main_v54 : Ref sig .tc := ⟨.hbm, 74, rfl⟩
abbrev main_v55 : Ref sig .tc := ⟨.hbm, 75, rfl⟩
abbrev main_cst_16 : Ref sig .tc := ⟨.hbm, 76, rfl⟩
abbrev main_v56 : Ref sig .tc := ⟨.hbm, 77, rfl⟩
abbrev main_cst_17 : Ref sig .tc := ⟨.hbm, 78, rfl⟩
abbrev main_v57 : Ref sig .tc := ⟨.hbm, 79, rfl⟩
abbrev main_cst_18 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]

class Facts₀ : Prop where
  reducesTo_S32x3x96000_S32x3_d2 : S32x3x96000.ReducesTo [2] S32x3
  h_S_ : 0 < S_.numel
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x96000_0_1_2 : S32x3x1.BroadcastsInDim S32x3x96000 (![0, 1, 2] : Fin 3 → Fin S32x3x96000.rank)
  bcast_S32x3_S32x1x3_0_2 : S32x3.BroadcastsInDim S32x1x3 (![0, 2] : Fin 2 → Fin S32x1x3.rank)
  bcast_S_S32x1x3 : S_.BroadcastsInDim S32x1x3 (![] : Fin 0 → Fin S32x1x3.rank)
  bcast_S32x1x3_S32x3x3_0_1_2 : S32x1x3.BroadcastsInDim S32x3x3 (![0, 1, 2] : Fin 3 → Fin S32x3x3.rank)
  bcast_S32x3x1_S32x3x3_0_1_2 : S32x3x1.BroadcastsInDim S32x3x3 (![0, 1, 2] : Fin 3 → Fin S32x3x3.rank)
  bcast_S_S32x3x3 : S_.BroadcastsInDim S32x3x3 (![] : Fin 0 → Fin S32x3x3.rank)
  bcast_S3_S1x3_1 : S3.BroadcastsInDim S1x3 (![1] : Fin 1 → Fin S1x3.rank)
  bcast_S_S1x3 : S_.BroadcastsInDim S1x3 (![] : Fin 0 → Fin S1x3.rank)
  bcast_S_S6x3 : S_.BroadcastsInDim S6x3 (![] : Fin 0 → Fin S6x3.rank)
  bcast_S1x3_S6x3_0_1 : S1x3.BroadcastsInDim S6x3 (![0, 1] : Fin 2 → Fin S6x3.rank)
  bcast_S6x3_S6x3x1_0_1 : S6x3.BroadcastsInDim S6x3x1 (![0, 1] : Fin 2 → Fin S6x3x1.rank)
  concatenates_S6x3x1_S6x3x1_S6x3x2_d2 : Shape.Concatenates [S6x3x1, S6x3x1] S6x3x2 2
  reducesTo_S32x6x3_S32x6_d2 : S32x6x3.ReducesTo [2] S32x6
  bcast_S_S32x6 : S_.BroadcastsInDim S32x6 (![] : Fin 0 → Fin S32x6.rank)
  reducesTo_S32x6_S32_d1 : S32x6.ReducesTo [1] S32
  reducesTo_S32_S_d0 : S32.ReducesTo [0] S_
  dot_S32x3x96000_S32x3x96000_S32x3x3_2_2_1_1_0_0_wf : DotDims.WF S32x3x96000 S32x3x96000 S32x3x3 [2] [2] [1] [1] [0] [0]
  gather_S32x3x3_S6x3x2_S32x6x3_0_12_n_n_12_2_3211_wf : GatherDims.WF S32x3x3 S6x3x2 S32x6x3 [0] [1, 2] [] [1, 2] [] 2 ![32, 1, 1]

variable [Facts₀]

def dot_S32x3x96000_S32x3x96000_S32x3x3_2_2_1_1_0_0 : DotDims S32x3x96000 S32x3x96000 S32x3x3 where
  lhsContracting := [2]
  rhsContracting := [2]
  lhsNonContracting := [1]
  rhsNonContracting := [1]
  lhsBatch := [0]
  rhsBatch := [0]
  wf := dot_S32x3x96000_S32x3x96000_S32x3x3_2_2_1_1_0_0_wf
def gather_S32x3x3_S6x3x2_S32x6x3_0_12_n_n_12_2_3211 : GatherDims S32x3x3 S6x3x2 S32x6x3 where
  offsetDims := [0]
  collapsedSliceDims := [1, 2]
  operandBatchingDims := []
  startIndicesBatchingDims := []
  startIndexMap := [1, 2]
  indexVectorDim := 2
  sliceSizes := ![32, 1, 1]
  wf := gather_S32x3x3_S6x3x2_S32x6x3_0_12_n_n_12_2_3211_wf

class Facts : Prop extends Facts₀ where

variable [Facts]
-- ==== Proof.PairScore.lean ====
/-
  The pairwise signal-to-distortion score of one batch element, on the extended reals.

  For one batch element the estimate and the reference are two 3 × 96000 matrices X and Y (channels by samples). Each
  row is centred by its mean (the row's sum divided by 96000). With
      gram X Y i j  = Σ_t  X̃ i t · Ỹ j t            (the Gram entry of centred rows),
      energy X i    = Σ_t  X̃ i t · X̃ i t            (a centred row's energy),
      target i j    = (gram i j)² / (energy Y j + ε),
  the score of the pair (i, j) is
      10 · ( log ( target i j / (energy X i − target i j + ε) + ε ) · c ),
  where ε, c and 10 are the three float words the programs carry (ε the single-precision word nearest 1e-8, c the one
  nearest 1 / ln 10). The words are kept as words: both programs carry the same ones, so they are never evaluated.
  Every operation is the exact one of the extended reals; nothing here needs the entries to be finite.
  `pairs` is the same for a whole batch of 32: two `[32, 3, 96000]` arrays give a `[32, 3, 3]` array of scores.
-/
import Idealize.ShloMosaic.PureOps.Ideal
import Idealize.ShloMosaic.Lib.ValueIdx

noncomputable section

namespace Cert.PairScore

open Idealize.ShloMosaic Idealize.ShloMosaic.ValueIdx
open scoped BigOperators

/-- The number of samples, 96000, as the programs' float word. -/
abbrev len : EReal := Ideal.ofBits .f32 0x47BB8000#32
/-- The programs' ε. -/
abbrev eps : EReal := Ideal.ofBits .f32 0x322BCC77#32
/-- The programs' factor turning a natural logarithm into a decimal one. -/
abbrev log10e : EReal := Ideal.ofBits .f32 0x3EDE5BD9#32
/-- The programs' 10. -/
abbrev ten : EReal := Ideal.ofBits .f32 0x41200000#32

/-- A row's mean: its sum over the samples, divided by their number. -/
def mean (X : Fin 3 → Fin 96000 → EReal) (i : Fin 3) : EReal := Ideal.div (∑ t : Fin 96000, X i t) len

/-- A row with its mean taken off. -/
def centred (X : Fin 3 → Fin 96000 → EReal) (i : Fin 3) (t : Fin 96000) : EReal := X i t - mean X i

/-- The Gram entry of centred row i of X and centred row j of Y. -/
def gram (X Y : Fin 3 → Fin 96000 → EReal) (i j : Fin 3) : EReal := ∑ t : Fin 96000, centred X i t * centred Y j t

/-- The energy of centred row i. -/
def energy (X : Fin 3 → Fin 96000 → EReal) (i : Fin 3) : EReal := ∑ t : Fin 96000, centred X i t * centred X i t

/-- The energy of the projection of centred row i of X on centred row j of Y. -/
def target (X Y : Fin 3 → Fin 96000 → EReal) (i j : Fin 3) : EReal :=
  Ideal.div (gram X Y i j * gram X Y i j) (energy Y j + eps)

/-- The score of the pair (i, j), in decibels. -/
def score (X Y : Fin 3 → Fin 96000 → EReal) (i j : Fin 3) : EReal :=
  ten * (Ideal.log (Ideal.div (target X Y i j) (energy X i - target X Y i j + eps) + eps) * log10e)

/-- The pair scores of a whole batch: at (b, i, j) the score of rows i and j of batch element b of the two arrays. -/
def pairs (x y : (⟨3, ![32, 3, 96000]⟩ : Shape).Idx → EReal) : (⟨3, ![32, 3, 3]⟩ : Shape).Idx → EReal := fun idx =>
  score (fun r t => x (ix3 (idx 0 : Fin 32) r t)) (fun r t => y (ix3 (idx 0 : Fin 32) r t)) (idx 1) (idx 2)

theorem pairs_apply (x y : (⟨3, ![32, 3, 96000]⟩ : Shape).Idx → EReal) (b : Fin 32) (i j : Fin 3) :
    pairs x y (ix3 b i j) = score (fun r t => x (ix3 b r t)) (fun r t => y (ix3 b r t)) i j := rfl

end Cert.PairScore

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.KernelBody.lean ====
/-
  The kernel body's result at an index.

  At one grid point the body loads the point's block of the estimate and of the reference (each `[1, 3, 96000]`),
  drops the unit axis, centres every row by its mean, multiplies the two centred matrices rows by rows on the matrix
  unit (into a zero accumulator), takes each centred row's energy on the vector unit, and finishes with pointwise
  arithmetic on the 3 × 3 result. At the exact instance the matrix product is a plain sum over the 96000 samples and
  so is each lane sum, hence the value stored at (i, j) is the pair score of rows i and j of the two blocks
  (`PairScore.score`). The printed payload is regrouped here into four named stages — centring, Gram matrix, energies,
  the pointwise finish — each read at an index by its own lemma.
-/
import proofs.«103634_j17059610100257_1_alg».proof.Proof.Gen.KernelIdeal.Skeleton
import proofs.«103634_j17059610100257_1_alg».proof.Proof.PairScore
import proofs.«103634_j17059610100257_1_alg».proof.Proof.LibRowwise
import proofs.«103634_j17059610100257_1_alg».proof.Proof.LibMatmul2d
import Idealize.ShloMosaic.Lib.ValueLayout

noncomputable section

namespace Cert.KernelIdeal.Body

open Cert.KernelIdeal Cert.KernelIdeal.Gen Idealize.ShloMosaic Idealize.ShloMosaic.ValueIdx Cert.PairScore
open scoped BigOperators

/-- A block `[1, 3, 96000]` as the 3 × 96000 matrix of its one batch element, by coordinates. -/
def slab (X : Vec Ideal S1x3x96000 .f32) : Fin 3 → Fin 96000 → EReal := fun i t => X (ix3 (0 : Fin 1) i t)

/-! ## The stages -/

/-- The block with its unit axis dropped. -/
def mat (X : Vec Ideal S1x3x96000 .f32) : FVec Ideal S3x96000 .f32 :=
  shapeCast S3x96000 X shapeCasts_S1x3x96000_S3x96000

theorem mat_apply (X : Vec Ideal S1x3x96000 .f32) (i : Fin 3) (t : Fin 96000) :
    mat X (ix2 i t) = X (ix3 (0 : Fin 1) i t) :=
  shapeCast_1ab_ab_apply X _ i t

/-- Every row's sum over the samples, on the vector unit. -/
def rowSums (V : FVec Ideal S3x96000 .f32) : FVec Ideal S3 .f32 :=
  multiReduction .add [1] S3 V 0x00000000#32 reduces_S3x96000_S3 (.inl rfl) rfl

theorem rowSums_apply (V : FVec Ideal S3x96000 .f32) (i : Fin 3) :
    rowSums V (ix1 i) = ∑ t : Fin 96000, V (ix2 i t) :=
  LibRowwise.rowSum_apply V 0x00000000#32 reduces_S3x96000_S3 (.inl rfl) rfl i

/-- Every row with its mean taken off: the row sums kept as a column, divided by the number of samples, repeated along
    the rows and subtracted. -/
def centreV (V : FVec Ideal S3x96000 .f32) : FVec Ideal S3x96000 .f32 :=
  subf V (broadcastTo S3x96000
    (divf (shapeCast S3x1 (rowSums V) shapeCasts_S3_S3x1) (broadcast S3x1 (Scalar.ofBits .f32 0x47BB8000#32)))
    broadcasts_S3x1_S3x96000)

theorem centreV_apply (V : FVec Ideal S3x96000 .f32) (i : Fin 3) (t : Fin 96000) :
    centreV V (ix2 i t) = centred (fun i t => V (ix2 i t)) i t := by
  unfold centreV
  rw [subf_apply, LibRowwise.broadcastTo_a1_ab_apply, divf_apply, LibRowwise.shapeCast_a_a1_apply, rowSums_apply,
    broadcast_apply]
  rfl

/-- The product of one matrix with the transpose of another on the matrix unit, into a zero accumulator. -/
def gramV (A B : FVec Ideal S3x96000 .f32) : FVec Ideal S3x3 .f32 :=
  matmul dot_S3x96000_S3x96000_S3x3_1_1_0_0_n_n (some .fp32) A B (constant S3x3 .f32 0x00000000#32)

theorem gramV_apply (A B : FVec Ideal S3x96000 .f32) (i j : Fin 3) :
    gramV A B (ix2 i j) = ∑ t : Fin 96000, A (ix2 i t) * B (ix2 j t) :=
  LibMatmul2d.matmul_transposedRhs_apply (M := 3) (K := 96000) (N := 3) A B i j

/-- Every row's energy: the row sums of the entrywise square. -/
def energyV (C : FVec Ideal S3x96000 .f32) : FVec Ideal S3 .f32 := rowSums (mulf C C)

theorem energyV_apply (C : FVec Ideal S3x96000 .f32) (i : Fin 3) :
    energyV C (ix1 i) = ∑ t : Fin 96000, C (ix2 i t) * C (ix2 i t) :=
  rowSums_apply (mulf C C) i

/-- The projection energies: the squared Gram entries over the second matrix's row energies plus ε, the energies laid
    as one row and repeated down the rows. -/
def targetV (G : FVec Ideal S3x3 .f32) (re : FVec Ideal S3 .f32) : FVec Ideal S3x3 .f32 :=
  divf (mulf G G) (broadcastTo S3x3
    (addf (shapeCast S1x3 re shapeCasts_S3_S1x3) (broadcast S1x3 (Scalar.ofBits .f32 0x322BCC77#32)))
    broadcasts_S1x3_S3x3)

theorem targetV_apply (G : FVec Ideal S3x3 .f32) (re : FVec Ideal S3 .f32) (i j : Fin 3) :
    targetV G re (ix2 i j) = Ideal.div (G (ix2 i j) * G (ix2 i j)) (re (ix1 j) + eps) := by
  unfold targetV
  rw [divf_apply, mulf_apply, broadcastTo_1b_ab_apply, addf_apply, shapeCast_a_1a_apply, broadcast_apply]
  rfl

/-- The vector logarithm at an index is the logarithm of the entry. -/
theorem log_apply {s : Shape} {φ : FTy} (a : FVec Ideal s φ) (i : s.Idx) : log a i = Ideal.log (a i) := rfl

/-- The pointwise finish: the first matrix's row energies kept as a column and repeated along the rows, the projection
    energy taken off, ε added, the quotient, ε added, the logarithm, the two scale factors. -/
def scoreV (G : FVec Ideal S3x3 .f32) (re ee : FVec Ideal S3 .f32) : FVec Ideal S3x3 .f32 :=
  mulf (broadcast S3x3 (Scalar.ofBits .f32 0x41200000#32))
    (mulf
      (log (addf
        (divf (targetV G re)
          (addf (subf (broadcastTo S3x3 (shapeCast S3x1 ee shapeCasts_S3_S3x1) broadcasts_S3x1_S3x3) (targetV G re))
            (broadcast S3x3 (Scalar.ofBits .f32 0x322BCC77#32))))
        (broadcast S3x3 (Scalar.ofBits .f32 0x322BCC77#32))))
      (broadcast S3x3 (Scalar.ofBits .f32 0x3EDE5BD9#32)))

theorem scoreV_apply (G : FVec Ideal S3x3 .f32) (re ee : FVec Ideal S3 .f32) (i j : Fin 3) :
    scoreV G re ee (ix2 i j)
      = ten * (Ideal.log (Ideal.div (targetV G re (ix2 i j)) (ee (ix1 i) - targetV G re (ix2 i j) + eps) + eps) * log10e) := by
  unfold scoreV
  rw [mulf_apply, mulf_apply, broadcast_apply, broadcast_apply, log_apply, addf_apply, divf_apply, addf_apply, subf_apply,
    LibRowwise.broadcastTo_a1_ab_apply, LibRowwise.shapeCast_a_a1_apply, broadcast_apply]
  rfl

/-! ## The payload -/

/-- The printed payload is the four stages composed. -/
theorem pay2_eq (X0 X1 : Vec Ideal S1x3x96000 .f32) :
    k0_pay2 (F := Ideal) X0 X1
      = scoreV (gramV (centreV (mat X0)) (centreV (mat X1))) (energyV (centreV (mat X1))) (energyV (centreV (mat X0))) := by
  unfold k0_pay2
  dsimp only
  unfold scoreV targetV gramV energyV centreV rowSums mat
  rfl

/-- The stored value is the 3 × 3 result with a unit axis put in front. -/
theorem pay1_apply (v : FVec Ideal S3x3 .f32) (u : Fin 1) (i j : Fin 3) : k0_pay1 (F := Ideal) v (ix3 u i j) = v (ix2 i j) :=
  shapeCast_ab_1ab_apply v shapeCasts_S3x3_S1x3x3 u i j

/-- What the body stores at `(u, i, j)` of the output block: the pair score of rows i and j of the two input blocks. -/
theorem stored_apply (X0 X1 : Vec Ideal S1x3x96000 .f32) (u : Fin 1) (i j : Fin 3) :
    k0_pay1 (k0_pay2 (F := Ideal) X0 X1) (ix3 u i j) = score (slab X0) (slab X1) i j := by
  rw [pay1_apply, pay2_eq, scoreV_apply, targetV_apply, gramV_apply, energyV_apply, energyV_apply]
  simp only [centreV_apply, mat_apply]
  rfl

end Cert.KernelIdeal.Body

end
-- ==== Proof.KernelBlocks.lean ====
/-
  The kernel's score array after the region.

  The grid has 32 points. Point t stages batch element t of the estimate and of the reference (a block `[1, 3, 96000]`
  of each, at block index (t, 0, 0)) and writes back the block `[1, 3, 3]` at block index (t, 0, 0) of the output. What
  it writes back is the body's result for the two staged blocks, that is (the body's value at an index) the pair scores
  of batch element t. The 32 output blocks tile the `[32, 3, 3]` array, so after the last point the array holds the pair
  scores of every batch element: `PairScore.pairs` of the two argument arrays as the region finds them.
-/
import proofs.«103634_j17059610100257_1_alg».proof.Proof.Gen.KernelIdeal.Frame
import proofs.«103634_j17059610100257_1_alg».proof.Proof.KernelBody
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.PairScore
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-- The printed index maps over the grid: at point t every window is at block index (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch element point t works on. -/
abbrev elt (t : Fin cfg0.N) : Fin 32 := Fin.cast N_0 t

/-- The estimate's block at point t is batch element t of the array. -/
theorem read0 (c : Dev nD) (t : Fin cfg0.N) (i : Fin 3) (k : Fin 96000) :
    iblk m c 0 t (ix3 (0 : Fin 1) i k) = V m c main_arg0 (ix3 (elt t) i k) := by
  obtain ⟨e0, e1, e2, -⟩ := idx_facts t
  show V m c main_arg0 (((cfg0.win 0).blk t).view.emb (ix3 (0 : Fin 1) i k)) = V m c main_arg0 (ix3 (elt t) i k)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 3 + 1 * i.val = i.val; omega
  | ⟨2, _⟩ => show win0_0.index t (2 : Fin 3) * 96000 + 1 * k.val = k.val; omega

/-- The reference's block at point t is batch element t of the array. -/
theorem read1 (c : Dev nD) (t : Fin cfg0.N) (i : Fin 3) (k : Fin 96000) :
    iblk m c 1 t (ix3 (0 : Fin 1) i k) = V m c main_arg1 (ix3 (elt t) i k) := by
  obtain ⟨-, -, -, e0, e1, e2, -⟩ := idx_facts t
  show V m c main_arg1 (((cfg0.win 1).blk t).view.emb (ix3 (0 : Fin 1) i k)) = V m c main_arg1 (ix3 (elt t) i k)
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 3 + 1 * i.val = i.val; omega
  | ⟨2, _⟩ => show win0_1.index t (2 : Fin 3) * 96000 + 1 * k.val = k.val; omega

/-- For blocks that are batch element b of two arrays, the body's stored value at (u, i, j) is the arrays' pair score
    at (b, i, j). -/
theorem point_eq (x y : FVec Ideal S32x3x96000 .f32) (X0 X1 : Vec Ideal S1x3x96000 .f32) (b : Fin 32)
    (h0 : ∀ (i : Fin 3) (k : Fin 96000), X0 (ix3 (0 : Fin 1) i k) = x (ix3 b i k))
    (h1 : ∀ (i : Fin 3) (k : Fin 96000), X1 (ix3 (0 : Fin 1) i k) = y (ix3 b i k)) (u : Fin 1) (i j : Fin 3) :
    k0_pay1 (k0_pay2 (F := Ideal) X0 X1) (ix3 u i j) = pairs x y (ix3 b i j) := by
  rw [Body.stored_apply, pairs_apply]
  unfold Body.slab
  simp only [h0, h1]

/-- WHAT POINT t WRITES BACK is block t of the pair scores of the argument arrays as the region finds them. -/
theorem flushed_eq (c : Dev nD) (t : Fin cfg0.N) :
    (dats m 0 c).flushed 2 t
      = ((cfg0.win 2).blk t).view.read (Elt Ideal) (pairs (V m c main_arg0) (V m c main_arg1)) := by
  show (cfg0.win 2).cut (grid0.coords t) ((dats m 0 c).after 2 t) = _
  rw [after0_2]
  unfold out0_2
  rw [View.canon_unit_zero hz]
  simp only [View.ld_unit_zero (S := S1x3x96000) hz]
  obtain ⟨-, -, -, -, -, -, e0, e1, e2⟩ := idx_facts t
  funext y
  obtain ⟨u, i, j, rfl⟩ : ∃ (u : Fin 1) (i j : Fin 3), y = ix3 u i j := ⟨y 0, y 1, y 2, eq_ix3 y⟩
  show k0_pay1 (k0_pay2 (F := Ideal) (iblk m c 0 t) (iblk m c 1 t)) (ix3 u i j)
    = pairs (V m c main_arg0) (V m c main_arg1) (((cfg0.win 2).blk t).view.emb (ix3 u i j))
  refine (point_eq (V m c main_arg0) (V m c main_arg1) (iblk m c 0 t) (iblk m c 1 t) (elt t)
    (read0 m c t) (read1 m c t) u i j).trans ?_
  refine congrArg (pairs (V m c main_arg0) (V m c main_arg1)) (funext fun a => Fin.ext ?_)
  have hu : u.val = 0 := by omega
  match a with
  | ⟨0, _⟩ => show t.val = win0_2.index t (0 : Fin 3) * 1 + 1 * u.val; omega
  | ⟨1, _⟩ => show i.val = win0_2.index t (1 : Fin 3) * 3 + 1 * i.val; omega
  | ⟨2, _⟩ => show j.val = win0_2.index t (2 : Fin 3) * 3 + 1 * j.val; omega

/-- An index of the output array is in point t's block iff each coordinate is in the block's range on its axis. -/
theorem mem_blk (t : Fin cfg0.N) (i : S32x3x3.Idx) :
    i ∈ ((cfg0.win 2).blk t).view.set
      ↔ ∀ a : Fin 3, win0_2.index t a * S1x3x3.size a ≤ (i a).val ∧ (i a).val < win0_2.index t a * S1x3x3.size a + S1x3x3.size a := by
  show i ∈ ((View.whole main_v0).slice (win0_2.rect t)).set ↔ _
  rw [View.set_slice_whole, Rect.mem_set_unit]
  exact Iff.rfl

/-- Every index of the output array is in the block of the point its first coordinate names. -/
theorem cover (i : S32x3x3.Idx) :
    ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 3 := (i 2).isLt
  have hN : cfg0.N = 32 := N_0
  obtain ⟨t, ht⟩ : ∃ t : Fin cfg0.N, t.val = (i 0).val := ⟨⟨(i 0).val, by omega⟩, rfl⟩
  obtain ⟨-, -, -, -, -, -, e0, e1, e2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 3 ≤ (i 1).val ∧ (i 1).val < win0_2.index t (1 : Fin 3) * 3 + 3
    omega
  | ⟨2, _⟩ =>
    show win0_2.index t (2 : Fin 3) * 3 ≤ (i 2).val ∧ (i 2).val < win0_2.index t (2 : Fin 3) * 3 + 3
    omega

/-- THE ARRAY after the region: the pair scores of the two argument arrays as launched. -/
theorem final (c : Dev nD) :
    (dats m 0 c).arrAt 2 cfg0.N
      = pairs (m ((c : Thread nD τ).loc main_arg0)) (m ((c : Thread nD τ).loc main_arg1)) := by
  rw [← V_main_arg0 m c, ← V_main_arg1 m c]
  exact (dats m 0 c).arrAt_eq_of_cover 2 _ (fun t _ => flushed_eq m c t) cover

end Cert.KernelIdeal.Blocks

end
-- ==== Proof.PermLoss.lean ====
/-
  From the pair scores to the loss.

  Both programs end the same way. From the `[32, 3, 3]` array of pair scores and the `[6, 3]` table of the six
  permutations of three channels they gather, for every batch element and every permutation, the three scores the
  permutation selects (row i, column σ i — the index pairs are built from an iota and the table, each made non-negative
  the way jnp normalises indices), average the three, take the best permutation's average, average over the batch and
  negate. This file states that chain ONCE, as one function of the score array and the table, at the exact instance. It is
  never opened: the two programs are shown to apply it to equal score arrays and the same table.
-/
import Idealize.ShloMosaic.PureOps
import Idealize.ShloMosaic.PureOps.Ideal

noncomputable section

namespace Cert.PermLoss

open Idealize.ShloMosaic

abbrev S_ : Shape := ⟨0, ![]⟩
abbrev S3 : Shape := ⟨1, ![3]⟩
abbrev S32 : Shape := ⟨1, ![32]⟩
abbrev S1x3 : Shape := ⟨2, ![1, 3]⟩
abbrev S6x3 : Shape := ⟨2, ![6, 3]⟩
abbrev S32x6 : Shape := ⟨2, ![32, 6]⟩
abbrev S6x3x1 : Shape := ⟨3, ![6, 3, 1]⟩
abbrev S6x3x2 : Shape := ⟨3, ![6, 3, 2]⟩
abbrev S32x3x3 : Shape := ⟨3, ![32, 3, 3]⟩
abbrev S32x6x3 : Shape := ⟨3, ![32, 6, 3]⟩

/-- The gather's dimension numbers: the whole batch axis is kept, one (row, column) pair is selected per entry of the
    index array's last axis. -/
def pick : GatherDims S32x3x3 S6x3x2 S32x6x3 where
  offsetDims := [0]
  collapsedSliceDims := [1, 2]
  operandBatchingDims := []
  startIndicesBatchingDims := []
  startIndexMap := [1, 2]
  indexVectorDim := 2
  sliceSizes := ![32, 1, 1]
  wf := by decide

/-- The (row, column) pairs to gather, `[6, 3, 2]`: for permutation p and channel i the pair (i, table p i), each
    coordinate with 3 added where it is negative. -/
def picks (tbl : IVec S6x3 32) : IVec S6x3x2 32 :=
  concatenate S6x3x2 2
    [⟨S6x3x1, broadcastInDim S6x3x1 ![0, 1] (by decide) (broadcastInDim S6x3 ![0, 1] (by decide)
        (select
          (cmpi .slt (broadcastInDim S1x3 ![1] (by decide) (iotaInDim S3 32 0))
            (broadcastInDim S1x3 ![] (by decide) (constantI S_ 32 0#32)))
          (addi (broadcastInDim S1x3 ![1] (by decide) (iotaInDim S3 32 0))
            (broadcastInDim S1x3 ![] (by decide) (constantI S_ 32 3#32)))
          (broadcastInDim S1x3 ![1] (by decide) (iotaInDim S3 32 0))))⟩,
     ⟨S6x3x1, broadcastInDim S6x3x1 ![0, 1] (by decide)
        (select (cmpi .slt tbl (broadcastInDim S6x3 ![] (by decide) (constantI S_ 32 0#32)))
          (addi tbl (broadcastInDim S6x3 ![] (by decide) (constantI S_ 32 3#32)))
          tbl)⟩]
    (by decide : Shape.Concatenates [S6x3x1, S6x3x1] S6x3x2 2)

/-- The loss: minus the batch mean of the best permutation's mean score. -/
def loss (pair : FVec Ideal S32x3x3 .f32) (tbl : IVec S6x3 32) : FVec Ideal S_ .f32 :=
  Host.negf (F := Ideal)
    (Host.divf (F := Ideal)
      (Host.reduceAdd (F := Ideal)
        (Host.reduce (FloatOps.maximumf (F := Ideal) (φ := .f32))
          (Host.divf (F := Ideal)
            (Host.reduceAdd (F := Ideal) (Host.gather pick pair (picks tbl)) (constant (F := Ideal) S_ .f32 0x00000000#32)
              (by decide : S32x6x3.ReducesTo [2] S32x6) (by decide : 0 < S_.numel))
            (broadcastInDim S32x6 ![] (by decide) (constant (F := Ideal) S_ .f32 0x40400000#32)))
          (constant (F := Ideal) S_ .f32 0xFF800000#32)
          (by decide : S32x6.ReducesTo [1] S32) (by decide : 0 < S_.numel))
        (constant (F := Ideal) S_ .f32 0x00000000#32)
        (by decide : S32.ReducesTo [0] S_) (by decide : 0 < S_.numel))
      (constant (F := Ideal) S_ .f32 0x42000000#32))

end Cert.PermLoss

end
-- ==== Proof.KernelRun.lean ====
/-
  The kernel program's run, read back.

  @main writes the permutation table, runs the region, and then applies the lines after the region to the region's
  output array and the table. The generated frame run says what every buffer holds at the end: the pipeline's arrays
  what the proof data computes — for the output, the pair scores of the argument arrays (the blocks tile it) — and every
  other buffer the fold of the lines after the region over those contents. Reading that fold at the result buffer gives
  the loss of the pair scores and the table.
-/
import proofs.«103634_j17059610100257_1_alg».proof.Proof.KernelBlocks
import proofs.«103634_j17059610100257_1_alg».proof.Proof.PermLoss
import Idealize.ShloMosaic.Lib.StableHlo.Run

noncomputable section

namespace Cert.KernelIdeal.Run

open Cert.KernelIdeal Cert.KernelIdeal.Gen Idealize.ShloMosaic Idealize.ShloMosaic.TcCoe Idealize.SL.Sem
open Cert.PairScore

variable (m : (ℓ : Loc nD τ sig) → Buf (Elt Ideal) ℓ) (ρ : Dev nD → PrngReg)

/-- The lines after the region, from any contents: the loss of what the score buffer and the table's buffer hold. -/
theorem tail_eq (W : Valuation τ sig (Elt Ideal)) :
    StableHlo.after (hostOps1 (F := Ideal)) W (Proc.devRef .tc main_v24)
      = PermLoss.loss (W (Proc.devRef .tc main_v0)) (W (Proc.devRef .tc main_c)) := by
  after_results_simp
  rfl

/-- The one line before the region writes the permutation table. -/
theorem table_eq (c : Dev nD) : V0 m c (Proc.devRef .tc main_c) = fun i => lit0 (S6x3.rowMajor i) := by
  show StableHlo.after (List.flatten [hostOps0]) (fun b => m (c, b)) (Proc.devRef .tc main_c) = _
  simp only [hostOps0, List.flatten_cons, List.flatten_nil, List.append_nil]
  after_results
  rfl

/-- What the result buffer holds after the lines that follow the region. -/
theorem result_eq (c : Dev nD) :
    Pipeline.afterTail₀ cfgs (dats m) 0 (V0 m) [hostOps1] c main_v24
      = PermLoss.loss (pairs (m ((c : Thread nD τ).loc main_arg0)) (m ((c : Thread nD τ).loc main_arg1)))
          (fun i => lit0 (S6x3.rowMajor i)) := by
  unfold Pipeline.afterTail₀
  show StableHlo.after hostOps1 (Pipeline.withArrays spec0 c (V0 m c) fun w => (dats m 0 c).arrAt w cfg0.N)
    (Proc.devRef .tc main_v24) = _
  rw [tail_eq]
  have h0 : Pipeline.withArrays spec0 c (V0 m c) (fun w => (dats m 0 c).arrAt w cfg0.N) (Proc.devRef .tc main_v0)
      = pairs (m ((c : Thread nD τ).loc main_arg0)) (m ((c : Thread nD τ).loc main_arg1)) :=
    (Pipeline.withArrays_arr spec0 launch0.win.arr_inj c (V0 m c) (fun w => (dats m 0 c).arrAt w cfg0.N) 2).trans
      (Blocks.final m c)
  have h1 : Pipeline.withArrays spec0 c (V0 m c) (fun w => (dats m 0 c).arrAt w cfg0.N) (Proc.devRef .tc main_c)
      = fun i => lit0 (S6x3.rowMajor i) :=
    (Pipeline.withArrays_of_ne spec0 c (V0 m c) (fun w => (dats m 0 c).arrAt w cfg0.N) main_c
      (fun w => by fin_cases w <;> decide)).trans (table_eq m c)
  rw [h0, h1]

/-- On every device, from any memory with zero counters: every weakly fair execution of @main terminates with the result
    buffer at the loss of the pair scores of the arguments, and the arguments unchanged. -/
theorem run : θ_run defs (onTc (τ := τ) (main (F := Ideal))) ⟨m, fun _ => 0, ρ⟩ fun r => ∀ c : Dev nD,
      r.2.mem ((c.tc : Thread nD τ).loc main_v24)
        = PermLoss.loss (pairs (m ((c.tc : Thread nD τ).loc main_arg0)) (m ((c.tc : Thread nD τ).loc main_arg1)))
            (fun i => lit0 (S6x3.rowMajor i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v24 (Pipeline.mem_restRefs_of main_v24 rfl (fun w => by fin_cases w <;> decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Run

end
-- ==== Proof.RefOps.lean ====
/- The reference program's @main as the list of its 81 host operations, in the printed order (each entry is the
   operation of one printed line, unchanged), and that every operation touches TensorCore buffers only. -/
import proofs.«103634_j17059610100257_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 81 operations, in order. -/
abbrev ops : List (HloOp τ sig (Elt F)) :=
  [ StableHlo.nullary main_c (fun i => lit0 (S6x3.rowMajor i)),
    StableHlo.nullary main_cst (constant S_ .f32 0x00000000#32),
    StableHlo.binary main_arg0 main_cst main_v0 ((fun x v => Host.reduceAdd x v reducesTo_S32x3x96000_S32x3_d2 h_S_) : (⟨S32x3x96000, .f32⟩ : BufTy).Contents (Elt F) → (⟨S_, .f32⟩ : BufTy).Contents (Elt F) → (⟨S32x3, .f32⟩ : BufTy).Contents (Elt F)),
    StableHlo.unary main_v0 main_v1 (broadcastInDim S32x3x1 ![0, 1] bcast_S32x3_S32x3x1_0_1 : (⟨S32x3, .f32⟩ : BufTy).Contents (Elt F) → (⟨S32x3x1, .f32⟩ : BufTy).Contents (Elt F)),
    StableHlo.nullary main_cst_0 (constant S_ .f32 0x47BB8000#32),
    StableHlo.unary main_cst_0 main_v2 (broadcastInDim S32x3x1 ![] bcast_S_S32x3x1 : (⟨S_, .f32⟩ : BufTy).Contents (Elt F) → (⟨S32x3x1, .f32⟩ : BufTy).Contents (Elt F)),
    StableHlo.binary main_v1 main_v2 main_v3 (Host.divf : (⟨S32x3x1, .f32⟩ : BufTy).Contents (Elt F) → (⟨S32x3x1, .f32⟩ : BufTy).Contents (Elt F) → (⟨S32x3x1, .f32⟩ : BufTy).Contents (Elt F)),
    StableHlo.unary main_v3 main_v4 (broadcastInDim S32x3x96000 ![0, 1, 2] bcast_S32x3x1_S32x3x96000_0_1_2 : (⟨S32x3x1, .f32⟩ : BufTy).Contents (Elt F) → (⟨S32x3x96000, .f32⟩ : BufTy).Contents (Elt F)),
    StableHlo.binary main_arg0 main_v4 main_v5 (subf : (⟨S32x3x96000, .f32⟩ : BufTy).Contents (Elt F) → (⟨S32x3x96000, .f32⟩ : BufTy).Contents (Elt F) → (⟨S32x3x96000, .f32⟩ : BufTy).Contents (Elt F)),
    StableHlo.nullary main_cst_1 (constant S_ .f32 0x00000000#32),
    StableHlo.binary main_arg1 main_cst_1 main_v6 ((fun x v => Host.reduceAdd x v reducesTo_S32x3x96000_S32x3_d2 h_S_) : (⟨S32x3x96000, .f32⟩ : BufTy).Contents (Elt F) → (⟨S_, .f32⟩ : BufTy).Contents (Elt F) → (⟨S32x3, .f32⟩ : BufTy).Contents (Elt F)),
    StableHlo.unary main_v6 main_v7 (broadcastInDim S32x3x1 ![0, 1] bcast_S32x3_S32x3x1_0_1 : (⟨S32x3, .f32⟩ : BufTy).Contents (Elt F) → (⟨S32x3x1, .f32⟩ : BufTy).Contents (Elt F)),
    StableHlo.nullary main_cst_2 (constant S_ .f32 0x47BB8000#32),
    StableHlo.unary main_cst_2 main_v8 (broadcastInDim S32x3x1 ![] bcast_S_S32x3x1 : (⟨S_, .f32⟩ : BufTy).Contents (Elt F) → (⟨S32x3x1, .f32⟩ : BufTy).Contents (Elt F)),
    StableHlo.binary main_v7 main_v8 main_v9 (Host.divf : (⟨S32x3x1, .f32⟩ : BufTy).Contents (Elt F) → (⟨S32x3x1, .f32⟩ : BufTy).Contents (Elt F) → (⟨S32x3x1, .f32⟩ : BufTy).Contents (Elt F)),
    StableHlo.unary main_v9 main_v10 (broadcastInDim S32x3x96000 ![0, 1, 2] bcast_S32x3x1_S32x3x96000_0_1_2 : (⟨S32x3x1, .f32⟩ : BufTy).Contents (Elt F) → (⟨S32x3x96000, .f32⟩ : BufTy).Contents (Elt F)),
    StableHlo.binary main_arg1 main_v10 main_v11 (subf : (⟨S32x3x96000, .f32⟩ : BufTy).Contents (Elt F) → (⟨S32x3x96000, .f32⟩ : BufTy).Contents (Elt F) → (⟨S32x3x96000, .f32⟩ : BufTy).Contents (Elt F)),
    StableHlo.binary main_v5 main_v11 main_v12 ((fun l r => Host.dotGeneral dot_S32x3x96000_S32x3x96000_S32x3x3_2_2_1_1_0_0 none l r) : (⟨S32x3x96000, .f32⟩ : BufTy).Contents (Elt F) → (⟨S32x3x96000, .f32⟩ : BufTy).Contents (Elt F) → (⟨S32x3x3, .f32⟩ : BufTy).Contents (Elt F)),
    StableHlo.binary main_v11 main_v11 main_v13 (mulf : (⟨S32x3x96000, .f32⟩ : BufTy).Contents (Elt F) → (⟨S32x3x96000, .f32⟩ : BufTy).Contents (Elt F) → (⟨S32x3x96000, .f32⟩ : BufTy).Contents (Elt F)),
    StableHlo.nullary main_cst_3 (constant S_ .f32 0x00000000#32),
    StableHlo.binary main_v13 main_cst_3 main_v14 ((fun x v => Host.reduceAdd x v reducesTo_S32x3x96000_S32x3_d2 h_S_) : (⟨S32x3x96000, .f32⟩ : BufTy).Contents (Elt F) → (⟨S_, .f32⟩ : BufTy).Contents (Elt F) → (⟨S32x3, .f32⟩ : BufTy).Contents (Elt F)),
    StableHlo.unary main_v14 main_v15 (broadcastInDim S32x1x3 ![0, 2] bcast_S32x3_S32x1x3_0_2 : (⟨S32x3, .f32⟩ : BufTy).Contents (Elt F) → (⟨S32x1x3, .f32⟩ : BufTy).Contents (Elt F)),
    StableHlo.binary main_v5 main_v5 main_v16 (mulf : (⟨S32x3x96000, .f32⟩ : BufTy).Contents (Elt F) → (⟨S32x3x96000, .f32⟩ : BufTy).Contents (Elt F) → (⟨S32x3x96000, .f32⟩ : BufTy).Contents (Elt F)),
    StableHlo.nullary main_cst_4 (constant S_ .f32 0x00000000#32),
    StableHlo.binary main_v16 main_cst_4 main_v17 ((fun x v => Host.reduceAdd x v reducesTo_S32x3x96000_S32x3_d2 h_S_) : (⟨S32x3x96000, .f32⟩ : BufTy).Contents (Elt F) → (⟨S_, .f32⟩ : BufTy).Contents (Elt F) → (⟨S32x3, .f32⟩ : BufTy).Contents (Elt F)),
    StableHlo.unary main_v17 main_v18 (broadcastInDim S32x3x1 ![0, 1] bcast_S32x3_S32x3x1_0_1 : (⟨S32x3, .f32⟩ : BufTy).Contents (Elt F) → (⟨S32x3x1, .f32⟩ : BufTy).Contents (Elt F)),
    StableHlo.binary main_v12 main_v12 main_v19 (mulf : (⟨S32x3x3, .f32⟩ : BufTy).Contents (Elt F) → (⟨S32x3x3, .f32⟩ : BufTy).Contents (Elt F) → (⟨S32x3x3, .f32⟩ : BufTy).Contents (Elt F)),
    StableHlo.nullary main_cst_5 (constant S_ .f32 0x322BCC77#32),
    StableHlo.unary main_cst_5 main_v20 (broadcastInDim S32x1x3 ![] bcast_S_S32x1x3 : (⟨S_, .f32⟩ : BufTy).Contents (Elt F) → (⟨S32x1x3, .f32⟩ : BufTy).Contents (Elt F)),
    StableHlo.binary main_v15 main_v20 main_v21 (addf : (⟨S32x1x3, .f32⟩ : BufTy).Contents (Elt F) → (⟨S32x1x3, .f32⟩ : BufTy).Contents (Elt F) → (⟨S32x1x3, .f32⟩ : BufTy).Contents (Elt F)),
    StableHlo.unary main_v21 main_v22 (broadcastInDim S32x3x3 ![0, 1, 2] bcast_S32x1x3_S32x3x3_0_1_2 : (⟨S32x1x3, .f32⟩ : BufTy).Contents (Elt F) → (⟨S32x3x3, .f32⟩ : BufTy).Contents (Elt F)),
    StableHlo.binary main_v19 main_v22 main_v23 (Host.divf : (⟨S32x3x3, .f32⟩ : BufTy).Contents (Elt F) → (⟨S32x3x3, .f32⟩ : BufTy).Contents (Elt F) → (⟨S32x3x3, .f32⟩ : BufTy).Contents (Elt F)),
    StableHlo.unary main_v18 main_v24 (broadcastInDim S32x3x3 ![0, 1, 2] bcast_S32x3x1_S32x3x3_0_1_2 : (⟨S32x3x1, .f32⟩ : BufTy).Contents (Elt F) → (⟨S32x3x3, .f32⟩ : BufTy).Contents (Elt F)),
    StableHlo.binary main_v24 main_v23 main_v25 (subf : (⟨S32x3x3, .f32⟩ : BufTy).Contents (Elt F) → (⟨S32x3x3, .f32⟩ : BufTy).Contents (Elt F) → (⟨S32x3x3, .f32⟩ : BufTy).Contents (Elt F)),
    StableHlo.nullary main_cst_6 (constant S_ .f32 0x322BCC77#32),
    StableHlo.unary main_cst_6 main_v26 (broadcastInDim S32x3x3 ![] bcast_S_S32x3x3 : (⟨S_, .f32⟩ : BufTy).Contents (Elt F) → (⟨S32x3x3, .f32⟩ : BufTy).Contents (Elt F)),
    StableHlo.binary main_v25 main_v26 main_v27 (addf : (⟨S32x3x3, .f32⟩ : BufTy).Contents (Elt F) → (⟨S32x3x3, .f32⟩ : BufTy).Contents (Elt F) → (⟨S32x3x3, .f32⟩ : BufTy).Contents (Elt F)),
    StableHlo.binary main_v23 main_v27 main_v28 (Host.divf : (⟨S32x3x3, .f32⟩ : BufTy).Contents (Elt F) → (⟨S32x3x3, .f32⟩ : BufTy).Contents (Elt F) → (⟨S32x3x3, .f32⟩ : BufTy).Contents (Elt F)),
    StableHlo.nullary main_cst_7 (constant S_ .f32 0x322BCC77#32),
    StableHlo.unary main_cst_7 main_v29 (broadcastInDim S32x3x3 ![] bcast_S_S32x3x3 : (⟨S_, .f32⟩ : BufTy).Contents (Elt F) → (⟨S32x3x3, .f32⟩ : BufTy).Contents (Elt F)),
    StableHlo.binary main_v28 main_v29 main_v30 (addf : (⟨S32x3x3, .f32⟩ : BufTy).Contents (Elt F) → (⟨S32x3x3, .f32⟩ : BufTy).Contents (Elt F) → (⟨S32x3x3, .f32⟩ : BufTy).Contents (Elt F)),
    StableHlo.unary main_v30 main_v31 (Host.log : (⟨S32x3x3, .f32⟩ : BufTy).Contents (Elt F) → (⟨S32x3x3, .f32⟩ : BufTy).Contents (Elt F)),
    StableHlo.nullary main_cst_8 (constant S_ .f32 0x3EDE5BD9#32),
    StableHlo.unary main_cst_8 main_v32 (broadcastInDim S32x3x3 ![] bcast_S_S32x3x3 : (⟨S_, .f32⟩ : BufTy).Contents (Elt F) → (⟨S32x3x3, .f32⟩ : BufTy).Contents (Elt F)),
    StableHlo.binary main_v31 main_v32 main_v33 (mulf : (⟨S32x3x3, .f32⟩ : BufTy).Contents (Elt F) → (⟨S32x3x3, .f32⟩ : BufTy).Contents (Elt F) → (⟨S32x3x3, .f32⟩ : BufTy).Contents (Elt F)),
    StableHlo.nullary main_cst_9 (constant S_ .f32 0x41200000#32),
    StableHlo.unary main_cst_9 main_v34 (broadcastInDim S32x3x3 ![] bcast_S_S32x3x3 : (⟨S_, .f32⟩ : BufTy).Contents (Elt F) → (⟨S32x3x3, .f32⟩ : BufTy).Contents (Elt F)),
    StableHlo.binary main_v34 main_v33 main_v35 (mulf : (⟨S32x3x3, .f32⟩ : BufTy).Contents (Elt F) → (⟨S32x3x3, .f32⟩ : BufTy).Contents (Elt F) → (⟨S32x3x3, .f32⟩ : BufTy).Contents (Elt F)),
    StableHlo.nullary main_v36 (iotaInDim S3 32 0),
    StableHlo.unary main_v36 main_v37 (broadcastInDim S1x3 ![1] bcast_S3_S1x3_1 : (⟨S3, .i32⟩ : BufTy).Contents (Elt F) → (⟨S1x3, .i32⟩ : BufTy).Contents (Elt F)),
    StableHlo.nullary main_c_10 (constantI S_ 32 0#32),
    StableHlo.unary main_c_10 main_v38 (broadcastInDim S1x3 ![] bcast_S_S1x3 : (⟨S_, .i32⟩ : BufTy).Contents (Elt F) → (⟨S1x3, .i32⟩ : BufTy).Contents (Elt F)),
    StableHlo.binary main_v37 main_v38 main_v39 (cmpi .slt : (⟨S1x3, .i32⟩ : BufTy).Contents (Elt F) → (⟨S1x3, .i32⟩ : BufTy).Contents (Elt F) → (⟨S1x3, .i1⟩ : BufTy).Contents (Elt F)),
    StableHlo.nullary main_c_11 (constantI S_ 32 3#32),
    StableHlo.unary main_c_11 main_v40 (broadcastInDim S1x3 ![] bcast_S_S1x3 : (⟨S_, .i32⟩ : BufTy).Contents (Elt F) → (⟨S1x3, .i32⟩ : BufTy).Contents (Elt F)),
    StableHlo.binary main_v37 main_v40 main_v41 (addi : (⟨S1x3, .i32⟩ : BufTy).Contents (Elt F) → (⟨S1x3, .i32⟩ : BufTy).Contents (Elt F) → (⟨S1x3, .i32⟩ : BufTy).Contents (Elt F)),
    StableHlo.ternary main_v39 main_v41 main_v37 main_v42 (select : (⟨S1x3, .i1⟩ : BufTy).Contents (Elt F) → (⟨S1x3, .i32⟩ : BufTy).Contents (Elt F) → (⟨S1x3, .i32⟩ : BufTy).Contents (Elt F) → (⟨S1x3, .i32⟩ : BufTy).Contents (Elt F)),
    StableHlo.nullary main_c_12 (constantI S_ 32 0#32),
    StableHlo.unary main_c_12 main_v43 (broadcastInDim S6x3 ![] bcast_S_S6x3 : (⟨S_, .i32⟩ : BufTy).Contents (Elt F) → (⟨S6x3, .i32⟩ : BufTy).Contents (Elt F)),
    StableHlo.binary main_c main_v43 main_v44 (cmpi .slt : (⟨S6x3, .i32⟩ : BufTy).Contents (Elt F) → (⟨S6x3, .i32⟩ : BufTy).Contents (Elt F) → (⟨S6x3, .i1⟩ : BufTy).Contents (Elt F)),
    StableHlo.nullary main_c_13 (constantI S_ 32 3#32),
    StableHlo.unary main_c_13 main_v45 (broadcastInDim S6x3 ![] bcast_S_S6x3 : (⟨S_, .i32⟩ : BufTy).Contents (Elt F) → (⟨S6x3, .i32⟩ : BufTy).Contents (Elt F)),
    StableHlo.binary main_c main_v45 main_v46 (addi : (⟨S6x3, .i32⟩ : BufTy).Contents (Elt F) → (⟨S6x3, .i32⟩ : BufTy).Contents (Elt F) → (⟨S6x3, .i32⟩ : BufTy).Contents (Elt F)),
    StableHlo.ternary main_v44 main_v46 main_c main_v47 (select : (⟨S6x3, .i1⟩ : BufTy).Contents (Elt F) → (⟨S6x3, .i32⟩ : BufTy).Contents (Elt F) → (⟨S6x3, .i32⟩ : BufTy).Contents (Elt F) → (⟨S6x3, .i32⟩ : BufTy).Contents (Elt F)),
    StableHlo.unary main_v42 main_v48 (broadcastInDim S6x3 ![0, 1] bcast_S1x3_S6x3_0_1 : (⟨S1x3, .i32⟩ : BufTy).Contents (Elt F) → (⟨S6x3, .i32⟩ : BufTy).Contents (Elt F)),
    StableHlo.unary main_v48 main_v49 (broadcastInDim S6x3x1 ![0, 1] bcast_S6x3_S6x3x1_0_1 : (⟨S6x3, .i32⟩ : BufTy).Contents (Elt F) → (⟨S6x3x1, .i32⟩ : BufTy).Contents (Elt F)),
    StableHlo.unary main_v47 main_v50 (broadcastInDim S6x3x1 ![0, 1] bcast_S6x3_S6x3x1_0_1 : (⟨S6x3, .i32⟩ : BufTy).Contents (Elt F) → (⟨S6x3x1, .i32⟩ : BufTy).Contents (Elt F)),
    StableHlo.binary main_v49 main_v50 main_v51 ((fun a b => concatenate S6x3x2 2 [⟨S6x3x1, a⟩, ⟨S6x3x1, b⟩] concatenates_S6x3x1_S6x3x1_S6x3x2_d2) : (⟨S6x3x1, .i32⟩ : BufTy).Contents (Elt F) → (⟨S6x3x1, .i32⟩ : BufTy).Contents (Elt F) → (⟨S6x3x2, .i32⟩ : BufTy).Contents (Elt F)),
    StableHlo.binary main_v35 main_v51 main_v52 ((fun x i => Host.gather gather_S32x3x3_S6x3x2_S32x6x3_0_12_n_n_12_2_3211 x i) : (⟨S32x3x3, .f32⟩ : BufTy).Contents (Elt F) → (⟨S6x3x2, .i32⟩ : BufTy).Contents (Elt F) → (⟨S32x6x3, .f32⟩ : BufTy).Contents (Elt F)),
    StableHlo.nullary main_cst_14 (constant S_ .f32 0x00000000#32),
    StableHlo.binary main_v52 main_cst_14 main_v53 ((fun x v => Host.reduceAdd x v reducesTo_S32x6x3_S32x6_d2 h_S_) : (⟨S32x6x3, .f32⟩ : BufTy).Contents (Elt F) → (⟨S_, .f32⟩ : BufTy).Contents (Elt F) → (⟨S32x6, .f32⟩ : BufTy).Contents (Elt F)),
    StableHlo.nullary main_cst_15 (constant S_ .f32 0x40400000#32),
    StableHlo.unary main_cst_15 main_v54 (broadcastInDim S32x6 ![] bcast_S_S32x6 : (⟨S_, .f32⟩ : BufTy).Contents (Elt F) → (⟨S32x6, .f32⟩ : BufTy).Contents (Elt F)),
    StableHlo.binary main_v53 main_v54 main_v55 (Host.divf : (⟨S32x6, .f32⟩ : BufTy).Contents (Elt F) → (⟨S32x6, .f32⟩ : BufTy).Contents (Elt F) → (⟨S32x6, .f32⟩ : BufTy).Contents (Elt F)),
    StableHlo.nullary main_cst_16 (constant S_ .f32 0xFF800000#32),
    StableHlo.binary main_v55 main_cst_16 main_v56 ((fun x v => Host.reduce FloatOps.maximumf x v reducesTo_S32x6_S32_d1 h_S_) : (⟨S32x6, .f32⟩ : BufTy).Contents (Elt F) → (⟨S_, .f32⟩ : BufTy).Contents (Elt F) → (⟨S32, .f32⟩ : BufTy).Contents (Elt F)),
    StableHlo.nullary main_cst_17 (constant S_ .f32 0x00000000#32),
    StableHlo.binary main_v56 main_cst_17 main_v57 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_18 (constant S_ .f32 0x42000000#32),
    StableHlo.binary main_v57 main_cst_18 main_v58 (Host.divf : (⟨S_, .f32⟩ : BufTy).Contents (Elt F) → (⟨S_, .f32⟩ : BufTy).Contents (Elt F) → (⟨S_, .f32⟩ : BufTy).Contents (Elt F)),
    StableHlo.unary main_v58 main_v59 (Host.negf : (⟨S_, .f32⟩ : BufTy).Contents (Elt F) → (⟨S_, .f32⟩ : BufTy).Contents (Elt F)) ]

theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub .., unary_bufs_sub ..⟩

end Cert.ReferenceIdeal.RefOps

end
-- ==== Proof.RefRun.lean ====
/-
  The reference program's run, read back.

  The reference's @main is a straight line of host operations (the list `RefOps.ops`). Run from any memory with zero
  counters, every weakly fair execution terminates, and each buffer then holds the fold of the operations' results over
  the launch contents (`StableHlo.after`): in particular the result buffer, and the two argument buffers, which no
  operation writes.
-/
import proofs.«103634_j17059610100257_1_alg».proof.Proof.RefOps

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- @main is its operations in sequence. -/
theorem main_eq (c : Dev nD) : main (F := F) c = seq ops := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- No operation writes the first argument. -/
theorem kept_arg0 (V : Valuation τ sig (Elt F)) :
    after (ops (F := F)) V (Proc.devRef .tc main_arg0) = V (Proc.devRef .tc main_arg0) := by
  after_results_simp

/-- No operation writes the second argument. -/
theorem kept_arg1 (V : Valuation τ sig (Elt F)) :
    after (ops (F := F)) V (Proc.devRef .tc main_arg1) = V (Proc.devRef .tc main_arg1) := by
  after_results_simp

/-- On every device, from any memory with zero counters: every weakly fair execution of @main terminates with the result
    buffer at the operations' fold over the launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = after (ops (F := F)) (launchContents m c) (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v59,
      (h c main_arg0).trans (kept_arg0 _),
      (h c main_arg1).trans (kept_arg1 _)⟩)
    (run_seq scopedRefs_eq scopedSems_eq defs main (fun _ => ops) main_eq (fun _ => ops_sub) m ρ)

end Cert.ReferenceIdeal.RefRun

end
-- ==== Proof.LibBatched3.lean ====
/-
  Batches of matrices on the host, read at an index by coordinates, at the exact instance and for any extents.

  A batch of matrices is a rank-3 array `[a, b, n]`: batch element, row, position in the row. This file reads, at an
  index written by its three coordinates,

  * the four layouts a per-row (or per-column) quantity of each batch element goes through to be combined with the
    matrices themselves: `[a, b] → [a, b, 1]` and `[a, b, 1] → [a, b, n]` (a per-row value kept as a last unit axis,
    then repeated along the row), `[a, b] → [a, 1, b]` and `[a, 1, b] → [a, n, b]` (a per-column value laid as one
    row, then repeated down the rows);
  * the host's sum over the last axis, at (batch element, row): the initial value plus the sum of the row's entries;
  * the host's batched product of rows by rows — batch on the first axis of both operands, the last axis of both
    contracted — at (batch element, i, j): the sum over the position of row i of the left operand times row j of the
    right one, both in that batch element.
-/
import Idealize.ShloMosaic.Lib.ValueLayout
import Idealize.ShloMosaic.Lib.IdealHost
import Idealize.ShloMosaic.PureOps.Ideal.Laws

noncomputable section

namespace Cert.LibBatched3

open Idealize.ShloMosaic Idealize.ShloMosaic.ValueIdx
open scoped BigOperators

variable {α : Type}

/-! ## Layouts -/

/-- `[a, b] → [a, b, 1]` (`dims = [0, 1]`) reads, at `(p, q, u)`, the operand at `(p, q)`. -/
theorem broadcastInDim_ab_ab1_apply {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- `[a, b, 1] → [a, b, n]` (`dims = [0, 1, 2]`) reads, at `(p, q, k)`, the operand at `(p, q, 0)`. -/
theorem broadcastInDim_ab1_abn_apply {a b n : ℕ} (x : (⟨3, ![a, b, 1]⟩ : Shape).Idx → α)
    (h : (⟨3, ![a, b, 1]⟩ : Shape).BroadcastsInDim ⟨3, ![a, b, n]⟩ (![0, 1, 2] : Fin 3 → Fin (⟨3, ![a, b, n]⟩ : Shape).rank))
    (p : Fin a) (q : Fin b) (k : Fin n) :
    broadcastInDim ⟨3, ![a, b, n]⟩ ![0, 1, 2] h x (ix3 p q k) = x (ix3 p q (0 : Fin 1)) := by
  refine broadcastInDim_apply _ h x (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => exact (if_pos rfl).symm

/-- `[a, b] → [a, 1, b]` (`dims = [0, 2]`) reads, at `(p, u, q)`, the operand at `(p, q)`. -/
theorem broadcastInDim_ab_a1b_apply {a b : ℕ} (x : (⟨2, ![a, b]⟩ : Shape).Idx → α)
    (h : (⟨2, ![a, b]⟩ : Shape).BroadcastsInDim ⟨3, ![a, 1, b]⟩ (![0, 2] : Fin 2 → Fin (⟨3, ![a, 1, b]⟩ : Shape).rank))
    (p : Fin a) (u : Fin 1) (q : Fin b) :
    broadcastInDim ⟨3, ![a, 1, b]⟩ ![0, 2] h x (ix3 p u q) = x (ix2 p q) := by
  refine broadcastInDim_apply _ h x (ix3 p u q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- `[a, 1, b] → [a, n, b]` (`dims = [0, 1, 2]`) reads, at `(p, k, q)`, the operand at `(p, 0, q)`. -/
theorem broadcastInDim_a1b_anb_apply {a b n : ℕ} (x : (⟨3, ![a, 1, b]⟩ : Shape).Idx → α)
    (h : (⟨3, ![a, 1, b]⟩ : Shape).BroadcastsInDim ⟨3, ![a, n, b]⟩ (![0, 1, 2] : Fin 3 → Fin (⟨3, ![a, n, b]⟩ : Shape).rank))
    (p : Fin a) (k : Fin n) (q : Fin b) :
    broadcastInDim ⟨3, ![a, n, b]⟩ ![0, 1, 2] h x (ix3 p k q) = x (ix3 p (0 : Fin 1) q) := by
  refine broadcastInDim_apply _ h x (ix3 p k q) (ix3 p (0 : Fin 1) q) fun ax => ?_
  match ax with
  | ⟨0, _⟩ =>
    show p.val = if a = 1 then 0 else p.val
    split
    · have := p.isLt; omega
    · rfl
  | ⟨1, _⟩ => exact (if_pos rfl).symm
  | ⟨2, _⟩ =>
    show q.val = if b = 1 then 0 else q.val
    split
    · have := q.isLt; omega
    · rfl

/-! ## The sum over the last axis -/

/-- (batch element, row) with the coordinate `k` put back on the dropped last axis is the index `(p, q, k)`. -/
theorem lift_lastAxis3 {a b n : ℕ} (h : (⟨3, ![a, b, n]⟩ : Shape).Reduces [2] ⟨2, ![a, b]⟩) (p : Fin a) (q : Fin b)
    (k : Fin n) : h.lift (ix2 p q) k = ix3 p q k := by
  funext c
  apply Fin.ext
  show h.liftVal (ix2 p q) k.val c = _
  unfold Shape.Reduces.liftVal
  match c with
  | ⟨0, _⟩ => exact (dif_neg (show ¬((0 : ℕ) = 2) by omega)).trans (dif_pos (show (0 : ℕ) < 2 by omega))
  | ⟨1, _⟩ => exact (dif_neg (show ¬((1 : ℕ) = 2) by omega)).trans (dif_pos (show (1 : ℕ) < 2 by omega))
  | ⟨2, _⟩ => exact dif_pos (show (2 : ℕ) = 2 from rfl)

/-- The host's sum of a batch of matrices over the last axis, at (batch element `p`, row `q`): the initial value plus the
    sum of that row's entries. -/
theorem hostLastAxisSum3_apply {φ : FTy} {a b n : ℕ} {u : Shape} (x : FVec Ideal ⟨3, ![a, b, n]⟩ φ) (init : u.Idx → Ideal φ)
    (h' : (⟨3, ![a, b, n]⟩ : Shape).ReducesTo [2] ⟨2, ![a, b]⟩) (h : (⟨3, ![a, b, n]⟩ : Shape).Reduces [2] ⟨2, ![a, b]⟩)
    (hu : 0 < u.numel) (p : Fin a) (q : Fin b) :
    Host.reduceAdd x init h' hu (ix2 p q) = init (Shape.Idx.first hu) + ∑ k : Fin n, x (ix3 p q k) :=
  (hostReduceAdd_apply x init h' hu (ix2 p q)).trans
    ((Ideal.hostReduceAdd_single h' h x _ (ix2 p q)).trans
      (congrArg (init (Shape.Idx.first hu) + ·) (Finset.sum_congr rfl fun k _ => congrArg x (lift_lastAxis3 h p q k))))

/-! ## Rows by rows, batch element by batch element -/

/-- The dimension record of a batched product of rows by rows: batch on axis 0 of both operands, axis 2 of both
    contracted, the result `[B, M, N]`. A printed program's own record with these six lists is this one by `rfl`. -/
def rowsByRows (B M N K : ℕ)
    (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := wf

section RowsByRows

variable {B M N K : ℕ} (wf : DotDims.WF ⟨3, ![B, M, K]⟩ ⟨3, ![B, N, K]⟩ ⟨3, ![B, M, N]⟩ [2] [2] [1] [1] [0] [0])

theorem rbr_rank : (rowsByRows B M N K wf).contr.rank = 1 := rfl
theorem rbr_size : (rowsByRows B M N K wf).contr.size ⟨0, by rw [rbr_rank]; exact Nat.one_pos⟩ = K := rfl

/-- The left operand is read in the output's batch element and at the output's row. -/
theorem rbr_lhs_batch (b : Fin B) (i : Fin M) (j : Fin N) (k : (rowsByRows B M N K wf).contr.Idx) :
    ((rowsByRows B M N K wf).lhsIdx (ix3 b i j) k (0 : Fin 3)).val = b.val := rfl
theorem rbr_lhs_row (b : Fin B) (i : Fin M) (j : Fin N) (k : (rowsByRows B M N K wf).contr.Idx) :
    ((rowsByRows B M N K wf).lhsIdx (ix3 b i j) k (1 : Fin 3)).val = i.val := rfl
/-- The right operand is read in the output's batch element and at the row the output's column names. -/
theorem rbr_rhs_batch (b : Fin B) (i : Fin M) (j : Fin N) (k : (rowsByRows B M N K wf).contr.Idx) :
    ((rowsByRows B M N K wf).rhsIdx (ix3 b i j) k (0 : Fin 3)).val = b.val := rfl
theorem rbr_rhs_row (b : Fin B) (i : Fin M) (j : Fin N) (k : (rowsByRows B M N K wf).contr.Idx) :
    ((rowsByRows B M N K wf).rhsIdx (ix3 b i j) k (1 : Fin 3)).val = j.val := rfl

/-- The host's batched product of rows by rows at `(b, i, j)`: the sum over the position `k` of the left operand at
    `(b, i, k)` times the right operand at `(b, j, k)`. -/
theorem dotGeneral_rowsByRows_apply {φ₁ φ₂ : FTy} (prec : Option ContractPrecision)
    (l : FVec Ideal ⟨3, ![B, M, K]⟩ φ₁) (r : FVec Ideal ⟨3, ![B, N, K]⟩ φ₂) (b : Fin B) (i : Fin M) (j : Fin N) :
    Host.dotGeneral (rowsByRows B M N K wf) prec l r (ix3 b i j) = ∑ k : Fin K, l (ix3 b i k) * r (ix3 b j k) := by
  show FloatOps.dotGeneral (rowsByRows B M N K wf) prec .single l r (ix3 b i j) = _
  rw [Ideal.dotGeneral_apply, ← Equiv.sum_comp (contrEquiv1 (rowsByRows B M N K wf) K (rbr_rank wf) (rbr_size wf)).symm]
  refine Finset.sum_congr rfl fun k _ => ?_
  have hl : (rowsByRows B M N K wf).lhsIdx (ix3 b i j) ((contrEquiv1 (rowsByRows B M N K wf) K (rbr_rank wf) (rbr_size wf)).symm k)
      = ix3 b i k := by
    funext ax
    refine Fin.ext ?_
    match ax with
    | ⟨0, _⟩ => exact rbr_lhs_batch wf b i j _
    | ⟨1, _⟩ => exact rbr_lhs_row wf b i j _
    | ⟨2, _⟩ =>
      rw [show (⟨2, by decide⟩ : Fin 3) = (2 : Fin 3) from rfl,
        DotDims.lhsIdx_val_of_single (rowsByRows B M N K wf) (cl := (2 : Fin 3)) rfl]
      exact contrEquiv1_symm_val (rowsByRows B M N K wf) K (rbr_rank wf) (rbr_size wf) k
  have hr : (rowsByRows B M N K wf).rhsIdx (ix3 b i j) ((contrEquiv1 (rowsByRows B M N K wf) K (rbr_rank wf) (rbr_size wf)).symm k)
      = ix3 b j k := by
    funext ax
    refine Fin.ext ?_
    match ax with
    | ⟨0, _⟩ => exact rbr_rhs_batch wf b i j _
    | ⟨1, _⟩ => exact rbr_rhs_row wf b i j _
    | ⟨2, _⟩ =>
      rw [show (⟨2, by decide⟩ : Fin 3) = (2 : Fin 3) from rfl,
        DotDims.rhsIdx_val_of_single (rowsByRows B M N K wf) (cr := (2 : Fin 3)) rfl]
      exact contrEquiv1_symm_val (rowsByRows B M N K wf) K (rbr_rank wf) (rbr_size wf) k
  rw [hl, hr]

end RowsByRows

end Cert.LibBatched3

end
-- ==== Proof.RefScores.lean ====
/-
  The reference's score array at an index.

  The reference computes, on whole `[32, 3, 96000]` arrays: every row's sum over the samples (kept as a last unit axis,
  divided by the number of samples, repeated along the row, subtracted — the centred arrays); the batched product of the
  centred estimate's rows by the centred reference's rows; every centred row's energy; and the pointwise finish on the
  `[32, 3, 3]` result, the reference's energies laid along the columns and the estimate's along the rows. At the exact
  instance the host's sums are plain sums (their initial value is the zero word) and the batched product is, batch
  element by batch element, the sum over the samples, so at (b, i, j) the array holds the pair score of rows i and j of
  batch element b: `PairScore.pairs`. The stages are named as for the kernel's body, in the host's spelling.
-/
import proofs.«103634_j17059610100257_1_alg».proof.Proof.Gen.ReferenceIdeal
import proofs.«103634_j17059610100257_1_alg».proof.Proof.PairScore
import proofs.«103634_j17059610100257_1_alg».proof.Proof.LibBatched3

noncomputable section

namespace Cert.ReferenceIdeal.Scores

open Cert.ReferenceIdeal Cert.ReferenceIdeal.Gen Idealize.ShloMosaic Idealize.ShloMosaic.ValueIdx
open Cert.PairScore Cert.LibBatched3
open scoped BigOperators

/-- The host's logarithm at an index is the logarithm of the entry. -/
theorem hostLog_apply {s : Shape} {φ : FTy} (a : FVec Ideal s φ) (i : s.Idx) : Host.log a i = Ideal.log (a i) := rfl

/-- Every row's sum over the samples. -/
def rowSumsH (x : FVec Ideal S32x3x96000 .f32) : FVec Ideal S32x3 .f32 :=
  Host.reduceAdd x (constant (F := Ideal) S_ .f32 0x00000000#32) reducesTo_S32x3x96000_S32x3_d2 h_S_

theorem rowSumsH_apply (x : FVec Ideal S32x3x96000 .f32) (b : Fin 32) (i : Fin 3) :
    rowSumsH x (ix2 b i) = ∑ t : Fin 96000, x (ix3 b i t) := by
  unfold rowSumsH
  rw [hostLastAxisSum3_apply x _ reducesTo_S32x3x96000_S32x3_d2 (by decide) h_S_ b i, constant_apply,
    Ideal.ofBits_zero_f32, zero_add]

/-- Every row with its mean taken off. -/
def centreH (x : FVec Ideal S32x3x96000 .f32) : FVec Ideal S32x3x96000 .f32 :=
  subf x (broadcastInDim S32x3x96000 ![0, 1, 2] bcast_S32x3x1_S32x3x96000_0_1_2
    (Host.divf (broadcastInDim S32x3x1 ![0, 1] bcast_S32x3_S32x3x1_0_1 (rowSumsH x))
      (broadcastInDim S32x3x1 ![] bcast_S_S32x3x1 (constant (F := Ideal) S_ .f32 0x47BB8000#32))))

theorem centreH_apply (x : FVec Ideal S32x3x96000 .f32) (b : Fin 32) (i : Fin 3) (t : Fin 96000) :
    centreH x (ix3 b i t) = centred (fun r s => x (ix3 b r s)) i t := by
  unfold centreH
  rw [subf_apply, broadcastInDim_ab1_abn_apply, hostDivf_apply, broadcastInDim_ab_ab1_apply, rowSumsH_apply,
    broadcastInDim_scalar_apply, constant_apply]
  rfl

/-- The batched product of rows by rows. -/
def gramH (a b : FVec Ideal S32x3x96000 .f32) : FVec Ideal S32x3x3 .f32 :=
  Host.dotGeneral dot_S32x3x96000_S32x3x96000_S32x3x3_2_2_1_1_0_0 none a b

theorem gramH_apply (a b : FVec Ideal S32x3x96000 .f32) (e : Fin 32) (i j : Fin 3) :
    gramH a b (ix3 e i j) = ∑ t : Fin 96000, a (ix3 e i t) * b (ix3 e j t) :=
  dotGeneral_rowsByRows_apply (B := 32) (M := 3) (N := 3) (K := 96000)
    dot_S32x3x96000_S32x3x96000_S32x3x3_2_2_1_1_0_0_wf none a b e i j

/-- Every row's energy. -/
def energyH (c : FVec Ideal S32x3x96000 .f32) : FVec Ideal S32x3 .f32 := rowSumsH (mulf c c)

theorem energyH_apply (c : FVec Ideal S32x3x96000 .f32) (e : Fin 32) (i : Fin 3) :
    energyH c (ix2 e i) = ∑ t : Fin 96000, c (ix3 e i t) * c (ix3 e i t) :=
  rowSumsH_apply (mulf c c) e i

/-- The projection energies. -/
def targetH (G : FVec Ideal S32x3x3 .f32) (re : FVec Ideal S32x3 .f32) : FVec Ideal S32x3x3 .f32 :=
  Host.divf (mulf G G)
    (broadcastInDim S32x3x3 ![0, 1, 2] bcast_S32x1x3_S32x3x3_0_1_2
      (addf (broadcastInDim S32x1x3 ![0, 2] bcast_S32x3_S32x1x3_0_2 re)
        (broadcastInDim S32x1x3 ![] bcast_S_S32x1x3 (constant (F := Ideal) S_ .f32 0x322BCC77#32))))

theorem targetH_apply (G : FVec Ideal S32x3x3 .f32) (re : FVec Ideal S32x3 .f32) (e : Fin 32) (i j : Fin 3) :
    targetH G re (ix3 e i j) = Ideal.div (G (ix3 e i j) * G (ix3 e i j)) (re (ix2 e j) + eps) := by
  unfold targetH
  rw [hostDivf_apply, mulf_apply, broadcastInDim_a1b_anb_apply, addf_apply, broadcastInDim_ab_a1b_apply,
    broadcastInDim_scalar_apply, constant_apply]

/-- The pointwise finish. -/
def scoreH (G : FVec Ideal S32x3x3 .f32) (re ee : FVec Ideal S32x3 .f32) : FVec Ideal S32x3x3 .f32 :=
  mulf (broadcastInDim S32x3x3 ![] bcast_S_S32x3x3 (constant (F := Ideal) S_ .f32 0x41200000#32))
    (mulf
      (Host.log (addf
        (Host.divf (targetH G re)
          (addf
            (subf
              (broadcastInDim S32x3x3 ![0, 1, 2] bcast_S32x3x1_S32x3x3_0_1_2
                (broadcastInDim S32x3x1 ![0, 1] bcast_S32x3_S32x3x1_0_1 ee))
              (targetH G re))
            (broadcastInDim S32x3x3 ![] bcast_S_S32x3x3 (constant (F := Ideal) S_ .f32 0x322BCC77#32))))
        (broadcastInDim S32x3x3 ![] bcast_S_S32x3x3 (constant (F := Ideal) S_ .f32 0x322BCC77#32))))
      (broadcastInDim S32x3x3 ![] bcast_S_S32x3x3 (constant (F := Ideal) S_ .f32 0x3EDE5BD9#32)))

theorem scoreH_apply (G : FVec Ideal S32x3x3 .f32) (re ee : FVec Ideal S32x3 .f32) (e : Fin 32) (i j : Fin 3) :
    scoreH G re ee (ix3 e i j)
      = ten * (Ideal.log (Ideal.div (targetH G re (ix3 e i j)) (ee (ix2 e i) - targetH G re (ix3 e i j) + eps) + eps)
          * log10e) := by
  unfold scoreH
  rw [mulf_apply, mulf_apply, hostLog_apply, addf_apply, hostDivf_apply, addf_apply, subf_apply,
    broadcastInDim_ab1_abn_apply, broadcastInDim_ab_ab1_apply]
  simp only [broadcastInDim_scalar_apply, constant_apply]
  rfl

/-- The reference's score array, as the operations compose. -/
def scoresH (x y : FVec Ideal S32x3x96000 .f32) : FVec Ideal S32x3x3 .f32 :=
  scoreH (gramH (centreH x) (centreH y)) (energyH (centreH y)) (energyH (centreH x))

/-- It is the pair scores of the two arrays. -/
theorem scoresH_eq (x y : FVec Ideal S32x3x96000 .f32) : scoresH x y = pairs x y := by
  funext idx
  obtain ⟨e, i, j, rfl⟩ : ∃ (e : Fin 32) (i j : Fin 3), idx = ix3 e i j := ⟨idx 0, idx 1, idx 2, eq_ix3 idx⟩
  unfold scoresH
  rw [scoreH_apply, targetH_apply, gramH_apply, energyH_apply, energyH_apply, pairs_apply]
  simp only [centreH_apply]
  rfl

end Cert.ReferenceIdeal.Scores

end
-- ==== Proof.RefResult.lean ====
/-
  The reference program's result.

  Folding the reference's operations over any contents, the result buffer holds the loss (`PermLoss.loss`) of the score
  array the first operations compute from the two arguments (`Scores.scoresH`) and of the permutation table the first
  operation writes.
-/
import proofs.«103634_j17059610100257_1_alg».proof.Proof.RefRun
import proofs.«103634_j17059610100257_1_alg».proof.Proof.RefScores
import proofs.«103634_j17059610100257_1_alg».proof.Proof.PermLoss

noncomputable section

namespace Cert.ReferenceIdeal.Result

open Cert.ReferenceIdeal Cert.ReferenceIdeal.Gen Cert.ReferenceIdeal.RefOps
open Idealize.ShloMosaic Idealize.ShloMosaic.TcCoe Idealize.SL.Sem Idealize.ShloMosaic.StableHlo

theorem result_eq (V : Valuation τ sig (Elt Ideal)) :
    after (ops (F := Ideal)) V (Proc.devRef .tc main_v59)
      = PermLoss.loss (Scores.scoresH (V (Proc.devRef .tc main_arg0)) (V (Proc.devRef .tc main_arg1)))
          (fun i => lit0 (S6x3.rowMajor i)) := by
  after_results_simp
  rfl

end Cert.ReferenceIdeal.Result

end
-- ==== Proof.lean ====
/-
  A permutation-invariant signal-to-distortion loss: a kernel against its jnp reference, on the extended reals.

  Inputs: an estimate and a reference, each `[32, 3, 96000]` (batch, channel, sample). For every batch element and every
  pair (i, j) of channels both programs centre the rows, take the Gram entry ⟨x̃ᵢ, ỹⱼ⟩ and the energies ‖x̃ᵢ‖², ‖ỹⱼ‖², and
  form the score 10 · log(t / (‖x̃ᵢ‖² − t + ε) + ε) · c with t = ⟨x̃ᵢ, ỹⱼ⟩² / (‖ỹⱼ‖² + ε) (`PairScore`). From the `[32, 3, 3]`
  scores both then take, per batch element, the best mean score over the six channel permutations, average over the
  batch and negate (`PermLoss`).

  The kernel does the first part one batch element per grid point, on blocks: row sums and energies on the vector unit,
  the Gram matrix on the matrix unit into a zero accumulator. The reference does it on whole arrays, with host sums and
  a batched product. At the exact instance these are the same sums over the 96000 samples, term for term, so the two
  score arrays are equal index by index (`KernelBody`, `KernelBlocks` for the kernel; `RefScores` for the reference),
  with no rearrangement that would need the entries finite; the float words (96000, ε, c, 10) are the same on both
  sides and are never evaluated. The second part is the same chain of host operations in both programs, applied to
  equal arrays and the same table, and is never opened.

  The frames of the two kernel programs are the generated ones; the reference's is its run with the result dropped. The
  ideal pass rewrote nothing, so the preservation claim is trivial.
-/
import proofs.«103634_j17059610100257_1_alg».proof.Defs
import proofs.«103634_j17059610100257_1_alg».proof.Proof.Gen.Kernel
import proofs.«103634_j17059610100257_1_alg».proof.Proof.Gen.Kernel.Skeleton
import proofs.«103634_j17059610100257_1_alg».proof.Proof.Gen.Kernel.Launch
import proofs.«103634_j17059610100257_1_alg».proof.Proof.Gen.Kernel.Points
import proofs.«103634_j17059610100257_1_alg».proof.Proof.Gen.Kernel.Frame
import proofs.«103634_j17059610100257_1_alg».proof.Proof.Gen.KernelIdeal
import proofs.«103634_j17059610100257_1_alg».proof.Proof.Gen.KernelIdeal.Skeleton
import proofs.«103634_j17059610100257_1_alg».proof.Proof.Gen.KernelIdeal.Launch
import proofs.«103634_j17059610100257_1_alg».proof.Proof.Gen.KernelIdeal.Points
import proofs.«103634_j17059610100257_1_alg».proof.Proof.Gen.KernelIdeal.Frame
import proofs.«103634_j17059610100257_1_alg».proof.Proof.Gen.ReferenceIdeal
import proofs.«103634_j17059610100257_1_alg».proof.Proof.Gen.Pre_finite_inputs
import proofs.«103634_j17059610100257_1_alg».proof.Proof.KernelRun
import proofs.«103634_j17059610100257_1_alg».proof.Proof.RefResult
import Idealize.ShloMosaic.Adequacy
import Idealize.ShloMosaic.Init

noncomputable section

namespace Cert.Proof

open Idealize.ShloMosaic Idealize.ShloMosaic.TcCoe Idealize.SL.Sem Cert.PairScore

/-- The two programs carry the same table of the six permutations. -/
theorem table_eq : ∀ k : Fin 18, Cert.ReferenceIdeal.lit0 k = Cert.KernelIdeal.lit0 k := by decide

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Both programs end at the loss of the pair scores of the (agreeing) arguments and of the one table. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  refine (Cert.ReferenceIdeal.Result.result_eq _).trans ?_
  rw [Cert.ReferenceIdeal.Scores.scoresH_eq]
  show PermLoss.loss
      (pairs (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))) _ = _
  rw [(hagree c).1, (hagree c).2]
  exact congrArg (PermLoss.loss _) (funext fun i => table_eq _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
